-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x40x64 : Shape := ⟨3, ![16384, 40, 64]⟩
abbrev S64x64 : Shape := ⟨2, ![64, 64]⟩
abbrev S_ : Shape := ⟨0, ![]⟩

class Facts : Prop where
  bcast_S_S16384x40x64 : S_.BroadcastsInDim S16384x40x64 (![] : Fin 0 → Fin S16384x40x64.rank)
  reducesTo_S16384x40x64_S_d0_1_2 : S16384x40x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x40x64 .f32) (main_arg1 : FVec F S64x64 .f32) (main_arg2 : FVec F S64x64 .f32) (main_arg3 : FVec F S64x64 .f32) (main_arg4 : FVec F S64x64 .f32) : IVec S_ 1 :=
  let main_v0 : FVec F S16384x40x64 .f32 := Host.absf main_arg0
  let main_cst : FVec F S_ .f32 := constant S_ .f32 0x7F800000#32
  let main_v1 : FVec F S16384x40x64 .f32 := broadcastInDim S16384x40x64 ![] bcast_S_S16384x40x64 main_cst
  let main_v2 : IVec S16384x40x64 1 := cmpf .olt main_v0 main_v1
  let main_c : IVec S_ 1 := constantI S_ 1 1#1
  let main_v3 : IVec S_ 1 := (fun x v => Host.reduce IntOp.andi x v reducesTo_S16384x40x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x40x64 : Shape := ⟨3, ![16384, 40, 64]⟩
abbrev S64x64 : Shape := ⟨2, ![64, 64]⟩
abbrev S64x192 : Shape := ⟨2, ![64, 192]⟩
abbrev S128x40x64 : Shape := ⟨3, ![128, 40, 64]⟩
abbrev S5120x64 : Shape := ⟨2, ![5120, 64]⟩
abbrev S5120x192 : Shape := ⟨2, ![5120, 192]⟩
abbrev S128x40x192 : Shape := ⟨3, ![128, 40, 192]⟩
abbrev S128x40x40 : Shape := ⟨3, ![128, 40, 40]⟩
abbrev S128x40 : Shape := ⟨2, ![128, 40]⟩
abbrev S128x40x1 : Shape := ⟨3, ![128, 40, 1]⟩

abbrev nBuf : Space → Nat
  | .hbm => 9
  | .vmem => 5
  | .smem => 0
  | _ => 0

abbrev bufTy : (tb : Table) → Fin (tcTables nBuf tb) → BufTy
  | .hbm, ⟨0, _⟩ => ⟨S16384x40x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x192, .f32⟩
  | .hbm, ⟨8, _⟩ => ⟨S16384x40x64, .f32⟩
  | .local _ .vmem, ⟨0, _⟩ => ⟨S128x40x64, .f32⟩
  | .local _ .vmem, ⟨1, _⟩ => ⟨S128x40x64, .f32⟩
  | .local _ .vmem, ⟨2, _⟩ => ⟨S64x192, .f32⟩
  | .local _ .vmem, ⟨3, _⟩ => ⟨S128x40x64, .f32⟩
  | .local _ .vmem, ⟨4, _⟩ => ⟨S128x40x64, .f32⟩
  | _, _ => ⟨S16384x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x40x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  concatenates_S64x64_S64x64_S64x64_S64x192_d1 : Shape.Concatenates [S64x64, S64x64, S64x64] S64x192 1
  inb_S128x40x64_S128x40x64_0_0_0 : ∀ a, (![0, 0, 0] : Fin 3 → Nat) a + S128x40x64.size a ≤ S128x40x64.size a
  h_S128x40x64 : 0 < S128x40x64.numel
  bitsLt_bf16_f32 : FTy.bits .bf16 < FTy.bits .f32
  shapeCasts_S128x40x64_S5120x64 : S128x40x64.ShapeCasts S5120x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  shapeCasts_S5120x192_S128x40x192 : S5120x192.ShapeCasts S128x40x192
  slices_S128x40x192_o0_0_0_S128x40x64 : S128x40x192.Slices ![0, 0, 0] S128x40x64
  slices_S128x40x192_o0_0_64_S128x40x64 : S128x40x192.Slices ![0, 0, 64] S128x40x64
  slices_S128x40x192_o0_0_128_S128x40x64 : S128x40x192.Slices ![0, 0, 128] S128x40x64
  reduces_S128x40x40_S128x40 : S128x40x40.Reduces [2] S128x40
  shapeCasts_S128x40_S128x40x1 : S128x40.ShapeCasts S128x40x1
  broadcasts_S128x40x1_S128x40x40 : S128x40x1.Broadcasts S128x40x40
  dot_S64x64_S64x64_S64x64_1_0_0_1_n_n_wf : DotDims.WF S64x64 S64x64 S64x64 [1] [0] [0] [1] [] []
  dot_S5120x64_S64x192_S5120x192_1_0_0_1_n_n_wf : DotDims.WF S5120x64 S64x192 S5120x192 [1] [0] [0] [1] [] []
  dot_S128x40x64_S128x40x64_S128x40x40_2_2_1_1_0_0_wf : DotDims.WF S128x40x64 S128x40x64 S128x40x40 [2] [2] [1] [1] [0] [0]
  dot_S128x40x40_S128x40x64_S128x40x64_2_1_1_2_0_0_wf : DotDims.WF S128x40x40 S128x40x64 S128x40x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x40x64.size a ≤ S16384x40x64.size a
  hwx0_0 : ∀ i : grid0.Coords, EltTy.bits .f32 = 32 ∨ (Rect.block (s := S16384x40x64) S128x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x40x64.size a ≤ S16384x40x64.size a
  hwx0_2 : ∀ i : grid0.Coords, EltTy.bits .f32 = 32 ∨ (Rect.block (s := S16384x40x64) S128x40x64.size (cc0_transform_2 i) (hinb0_2 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S5120x64_S64x192_S5120x192_1_0_0_1_n_n : DotDims S5120x64 S64x192 S5120x192 where
  lhsContracting := [1]
  rhsContracting := [0]
  lhsNonContracting := [0]
  rhsNonContracting := [1]
  lhsBatch := []
  rhsBatch := []
  wf := dot_S5120x64_S64x192_S5120x192_1_0_0_1_n_n_wf
def dot_S128x40x64_S128x40x64_S128x40x40_2_2_1_1_0_0 : DotDims S128x40x64 S128x40x64 S128x40x40 where
  lhsContracting := [2]
  rhsContracting := [2]
  lhsNonContracting := [1]
  rhsNonContracting := [1]
  lhsBatch := [0]
  rhsBatch := [0]
  wf := dot_S128x40x64_S128x40x64_S128x40x40_2_2_1_1_0_0_wf
def dot_S128x40x40_S128x40x64_S128x40x64_2_1_1_2_0_0 : DotDims S128x40x40 S128x40x64 S128x40x64 where
  lhsContracting := [2]
  rhsContracting := [1]
  lhsNonContracting := [1]
  rhsNonContracting := [2]
  lhsBatch := [0]
  rhsBatch := [0]
  wf := dot_S128x40x40_S128x40x64_S128x40x64_2_1_1_2_0_0_wf

abbrev win0_0 : Pipeline.Window sig grid0 :=
  Pipeline.Window.ofSpec (Memref.whole main_arg0) S128x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x40x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x40x64 : Shape := ⟨3, ![16384, 40, 64]⟩
abbrev S64x64 : Shape := ⟨2, ![64, 64]⟩
abbrev S16384x40x40 : Shape := ⟨3, ![16384, 40, 40]⟩
abbrev S_ : Shape := ⟨0, ![]⟩
abbrev S16384x40 : Shape := ⟨2, ![16384, 40]⟩
abbrev S16384x40x1 : Shape := ⟨3, ![16384, 40, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x40x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x40x64, .f32⟩
  | .hbm, ⟨6, _⟩ => ⟨S16384x40x64, .f32⟩
  | .hbm, ⟨7, _⟩ => ⟨S16384x40x64, .f32⟩
  | .hbm, ⟨8, _⟩ => ⟨S16384x40x40, .f32⟩
  | .hbm, ⟨9, _⟩ => ⟨S_, .f32⟩
  | .hbm, ⟨10, _⟩ => ⟨S16384x40, .f32⟩
  | .hbm, ⟨11, _⟩ => ⟨S_, .f32⟩
  | .hbm, ⟨12, _⟩ => ⟨S16384x40, .f32⟩
  | .hbm, ⟨13, _⟩ => ⟨S16384x40, .f32⟩
  | .hbm, ⟨14, _⟩ => ⟨S16384x40x1, .f32⟩
  | .hbm, ⟨15, _⟩ => ⟨S16384x40x40, .f32⟩
  | .hbm, ⟨16, _⟩ => ⟨S16384x40x40, .f32⟩
  | .hbm, ⟨17, _⟩ => ⟨S16384x40x40, .f32⟩
  | .hbm, ⟨18, _⟩ => ⟨S_, .f32⟩
  | .hbm, ⟨19, _⟩ => ⟨S16384x40, .f32⟩
  | .hbm, ⟨20, _⟩ => ⟨S16384x40x1, .f32⟩
  | .hbm, ⟨21, _⟩ => ⟨S16384x40x40, .f32⟩
  | .hbm, ⟨22, _⟩ => ⟨S16384x40x40, .f32⟩
  | .hbm, ⟨23, _⟩ => ⟨S16384x40x64, .f32⟩
  | .hbm, ⟨24, _⟩ => ⟨S16384x40x64, .f32⟩
  | .hbm, ⟨25, _⟩ => ⟨S16384x40x64, .f32⟩
  | .hbm, ⟨26, _⟩ => ⟨S_, .f32⟩
  | .hbm, ⟨27, _⟩ => ⟨S16384x40x64, .f32⟩
  | .hbm, ⟨28, _⟩ => ⟨S16384x40x64, .f32⟩
  | _, _ => ⟨S16384x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S16384x40x40_S16384x40_d2 : S16384x40x40.ReducesTo [2] S16384x40
  h_S_ : 0 < S_.numel
  bcast_S_S16384x40 : S_.BroadcastsInDim S16384x40 (![] : Fin 0 → Fin S16384x40.rank)
  bcast_S16384x40_S16384x40x1_0_1 : S16384x40.BroadcastsInDim S16384x40x1 (![0, 1] : Fin 2 → Fin S16384x40x1.rank)
  bcast_S16384x40x1_S16384x40x40_0_1_2 : S16384x40x1.BroadcastsInDim S16384x40x40 (![0, 1, 2] : Fin 3 → Fin S16384x40x40.rank)
  bcast_S_S16384x40x64 : S_.BroadcastsInDim S16384x40x64 (![] : Fin 0 → Fin S16384x40x64.rank)
  dot_S16384x40x64_S64x64_S16384x40x64_2_0_01_1_n_n_wf : DotDims.WF S16384x40x64 S64x64 S16384x40x64 [2] [0] [0, 1] [1] [] []
  dot_S16384x40x64_S16384x40x64_S16384x40x40_2_2_1_1_0_0_wf : DotDims.WF S16384x40x64 S16384x40x64 S16384x40x40 [2] [2] [1] [1] [0] [0]
  dot_S16384x40x40_S16384x40x64_S16384x40x64_2_1_1_2_0_0_wf : DotDims.WF S16384x40x40 S16384x40x64 S16384x40x64 [2] [1] [1] [2] [0] [0]

variable [Facts₀]

def dot_S16384x40x64_S64x64_S16384x40x64_2_0_01_1_n_n : DotDims S16384x40x64 S64x64 S16384x40x64 where
  lhsContracting := [2]
  rhsContracting := [0]
  lhsNonContracting := [0, 1]
  rhsNonContracting := [1]
  lhsBatch := []
  rhsBatch := []
  wf := dot_S16384x40x64_S64x64_S16384x40x64_2_0_01_1_n_n_wf
def dot_S16384x40x64_S16384x40x64_S16384x40x40_2_2_1_1_0_0 : DotDims S16384x40x64 S16384x40x64 S16384x40x40 where
  lhsContracting := [2]
  rhsContracting := [2]
  lhsNonContracting := [1]
  rhsNonContracting := [1]
  lhsBatch := [0]
  rhsBatch := [0]
  wf := dot_S16384x40x64_S16384x40x64_S16384x40x40_2_2_1_1_0_0_wf
def dot_S16384x40x40_S16384x40x64_S16384x40x64_2_1_1_2_0_0 : DotDims S16384x40x40 S16384x40x64 S16384x40x64 where
  lhsContracting := [2]
  rhsContracting := [1]
  lhsNonContracting := [1]
  rhsNonContracting := [2]
  lhsBatch := [0]
  rhsBatch := [0]
  wf := dot_S16384x40x40_S16384x40x64_S16384x40x64_2_1_1_2_0_0_wf

class Facts : Prop extends Facts₀ where

variable [Facts]
-- ==== Proof.BitsLaunch.lean ====
/- The kernel program at the word level, run from launch to return, and its frame.

   @main is three host operations (a transpose, a contraction, a concatenation of three arrays along the
   second axis) followed by one pipelined region over a grid of 128 points.  The region stages two inputs — a
   block [128, 40, 64] of the first argument per point, and the concatenated matrix [64, 192] whole — and one
   output block [128, 40, 64] per point.  At every point the body reads both staged inputs whole, computes one
   value from them, and overwrites the whole output block with it.

   This module states what the region finds in memory on entry (the launch memory pushed through the three host
   operations), what each window's staging buffer holds after the body at each point, and proves that the body
   does leave exactly that; the library's launch theorem then gives the run of @main, and from the run's
   post-state the five argument arrays are read back unchanged. -/
import proofs.«159285_j76630806495342_2_alg».proof.Proof.Gen.Kernel.Launch
import proofs.«159285_j76630806495342_2_alg».proof.Proof.Gen.Kernel.Skeleton
import proofs.«159285_j76630806495342_2_alg».proof.Proof.Gen.Kernel.Points
import Idealize.ShloMosaic.Lib.Pipeline.FrameBody
import Idealize.ShloMosaic.Lib.Ring
import Idealize.ShloMosaic.Lib.Tactic

-- the block's axes are 128, 40 and 64 long; checking that an index lies in a rectangle of those extents recurses
-- along the axes
set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the region's entry -/

/-- What core `c`'s buffer `b` holds when the region is entered: the launch memory after the three host
    operations, each of which rewrites its own result buffer and nothing else. -/
abbrev V (c : Dev nD) (b : Ref sig .tc) : Buf (Elt F) ((c : Thread nD τ).loc b) :=
  StableHlo.after hostOps0 (fun b => m (c, b)) b

/-- None of the three host operations leaves a buffer at contents the program does not determine. -/
theorem hostOps0_fresh : (hostOps0 : List (HloOp τ sig (Elt F))).Forall fun op => op.fresh = ∅ := by
  simp only [List.Forall]; repeat' constructor

/-- @main is the three host operations and then the region: holding the unscoped buffers at the launch memory,
    it reaches the region holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the transpose's result, the contraction's result and the concatenation's result;
    a buffer that is none of these three is found by the region as it was launched. -/
theorem V_of_not_result (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_not_result m c main_arg0 (by decide) (by decide) (by decide)
theorem V_main_arg1 (c : Dev nD) : V m c main_arg1 = m ((c : Thread nD τ).loc main_arg1) :=
  V_of_not_result m c main_arg1 (by decide) (by decide) (by decide)
theorem V_main_arg2 (c : Dev nD) : V m c main_arg2 = m ((c : Thread nD τ).loc main_arg2) :=
  V_of_not_result m c main_arg2 (by decide) (by decide) (by decide)
theorem V_main_arg3 (c : Dev nD) : V m c main_arg3 = m ((c : Thread nD τ).loc main_arg3) :=
  V_of_not_result m c main_arg3 (by decide) (by decide) (by decide)
theorem V_main_arg4 (c : Dev nD) : V m c main_arg4 = m ((c : Thread nD τ).loc main_arg4) :=
  V_of_not_result m c main_arg4 (by decide) (by decide) (by decide)

/-! ## The windows' blocks -/

/-- Window `w`'s block at grid point `t`: its array, as the region finds it, read through the block's rectangle. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window whose body leaves its block where it found it holds that block at every point, whether the
    point fetched it or not: where it was not fetched, the block index has not moved since the last fetch.
    Window 0 (fetched at every point). -/
theorem holds_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hkeep : ∀ t, (cfg0.win 0).cut (cfg0.grid.coords t) (dat.after 0 t) = dat.blockOf 0 t := fun t => by
    rw [hafter]; unfold Dat.blockOf iblk; rw [hA]; try rfl
  rw [dat.before_in_eq_fetched 0 rfl (fun _ => rfl) (fun _ _ _ => rfl) hkeep t d]
  unfold Dat.fetched Dat.blockOf iblk; rw [hA]; try rfl

/-- The same for window 1 (the whole matrix, fetched at the first point only). -/
theorem holds_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hkeep : ∀ t, (cfg0.win 1).cut (cfg0.grid.coords t) (dat.after 1 t) = dat.blockOf 1 t := fun t => by
    rw [hafter]; unfold Dat.blockOf iblk; rw [hA]; try rfl
  rw [dat.before_in_eq_fetched 1 rfl (fun _ => rfl) (fun _ _ _ => rfl) hkeep t d]
  unfold Dat.fetched Dat.blockOf iblk; rw [hA]; try rfl

/-! ## What the body leaves in the output block -/

/-- The three rectangles the body accesses: each is its whole buffer (offsets zero, the buffer's own extents). -/
abbrev rIn : Rect S128x40x64 := Rect.unit (s := S128x40x64) ![0, 0, 0] S128x40x64.size inb_S128x40x64_S128x40x64_0_0_0
abbrev rW : Rect S64x192 := Rect.unit (s := S64x192) ![0, 0] S64x192.size inb_S64x192_S64x192_0_0
abbrev rOut : Rect S128x40x64 := Rect.unit (s := S128x40x64) ![0, 0, 0] S128x40x64.size inb_S128x40x64_S128x40x64_0_0_0

/-- The output block after the body, as a function of the two input blocks: the one store's value, laid over the
    whole block. -/
def blockOut (x : Vec F S128x40x64 .f32) (w : Vec F S64x192 .f32) : Vec F S128x40x64 .f32 :=
  View.canon [⟨rOut, k0_pay1 (View.ld x rIn) (View.ld w rW)⟩]

/-- The store's rectangle starts at zero on every axis and is as long as the buffer on every axis: the buffer is one
    tile of that size, so every index of the buffer lies in the rectangle. -/
theorem rOut_covers (p : rOut.shape.Idx → Elt F .f32) (y : S128x40x64.Idx) :
    ∃ pc ∈ ([⟨rOut, p⟩] : List (View.Piece (Elt F) S128x40x64 .f32)), y ∈ pc.1.set :=
  View.cover_of_tiled [⟨rOut, p⟩] S128x40x64.size (by rfl) y

/-! ## The body's triple -/

set_option maxHeartbeats 1000000 in
/-- The body on whole staging buffers — the two inputs' at contents reading `x` and `w`, the output's at anything —
    runs to its return with the inputs' buffers as they were and the output's reading `blockOut x w`.  It loads the
    two inputs, loads the output buffer (a value it never uses), and stores the computed value over the whole
    output buffer. -/
theorem sound_kernel (c : Dev nD) (E : Set ℕ) (i : grid0.Coords)
    (a1 : Memref sig .tc .vmem S128x40x64 .f32) (h1 : a1.IsWhole)
    (a2 : Memref sig .tc .vmem S64x192 .f32) (h2 : a2.IsWhole)
    (a3 : Memref sig .tc .vmem S128x40x64 .f32) (h3 : a3.IsWhole)
    (x : Vec F S128x40x64 .f32) (w : Vec F S64x192 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (blockOut x w)) -∗ K ⟨⟩))
      ⊢ wp frame (wpE (defs₀ (F := F)) Variants.none c none) E (cc0__attn_kernel i a1 h1 a2 h2 a3 h3) K := by
  simp only [cc0__attn_kernel_eq_skeleton]; unfold cc0__attn_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rOut_covers _)

/-! ## The proof data -/

/-- On core `c`: the arrays as the region finds them; after the body at point `t` each input's buffer still at its
    block and the output's at `blockOut` of the two input blocks; the invariant only what the body never touches
    (the other scoped buffers and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = blockOut (iblk m c 0 t) (iblk m c 1 t) := by dsimp only [dats]

theorem before_in0 (c : Dev nD) (t : Fin cfg0.N) (d) : (dats m 0 c).before 0 t d = iblk m c 0 t :=
  holds_in0 m (dats m 0 c) (A_eq m c 0) (after_in0 m c) t d
theorem before_in1 (c : Dev nD) (t : Fin cfg0.N) (d) : (dats m 0 c).before 1 t d = iblk m c 1 t :=
  holds_in1 m (dats m 0 c) (A_eq m c 1) (after_in1 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which needs
-- plain definitions unfolded inside a metavariable's type
set_option backward.isDefEq.respectTransparency.types false in
/-- From any launch memory with all counters zero, every weakly fair execution of @main on the TensorCores
    terminates, and in every final state each array of the region holds what the proof data computes and every
    other unscoped buffer holds what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as they were launched.  The first is window 0's array: an input window's array
    is never written, so at the end it holds what the region found, which is the launch contents.  The other four
    are staged by no window: the region leaves them as it found them, which again is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩)
    (run_main m ρ)

end Cert.Kernel.Attn

end
-- ==== Proof.IdealLaunch.lean ====
/- The idealized kernel program, run from launch to return, and its frame.

   @main is three host operations (a transpose, a contraction, a concatenation of three arrays along the
   second axis) followed by one pipelined region over a grid of 128 points.  The region stages two inputs — a
   block [128, 40, 64] of the first argument per point, and the concatenated matrix [64, 192] whole — and one
   output block [128, 40, 64] per point.  At every point the body reads both staged inputs whole, computes one
   value from them, and overwrites the whole output block with it.

   This module states what the region finds in memory on entry (the launch memory pushed through the three host
   operations), what each window's staging buffer holds after the body at each point, and proves that the body
   does leave exactly that; the library's launch theorem then gives the run of @main, and from the run's
   post-state the five argument arrays are read back unchanged. -/
import proofs.«159285_j76630806495342_2_alg».proof.Proof.Gen.KernelIdeal.Launch
import proofs.«159285_j76630806495342_2_alg».proof.Proof.Gen.KernelIdeal.Skeleton
import proofs.«159285_j76630806495342_2_alg».proof.Proof.Gen.KernelIdeal.Points
import Idealize.ShloMosaic.Lib.Pipeline.FrameBody
import Idealize.ShloMosaic.Lib.Ring
import Idealize.ShloMosaic.Lib.Tactic

-- the block's axes are 128, 40 and 64 long; checking that an index lies in a rectangle of those extents recurses
-- along the axes
set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the region's entry -/

/-- What core `c`'s buffer `b` holds when the region is entered: the launch memory after the three host
    operations, each of which rewrites its own result buffer and nothing else. -/
abbrev V (c : Dev nD) (b : Ref sig .tc) : Buf (Elt F) ((c : Thread nD τ).loc b) :=
  StableHlo.after hostOps0 (fun b => m (c, b)) b

/-- None of the three host operations leaves a buffer at contents the program does not determine. -/
theorem hostOps0_fresh : (hostOps0 : List (HloOp τ sig (Elt F))).Forall fun op => op.fresh = ∅ := by
  simp only [List.Forall]; repeat' constructor

/-- @main is the three host operations and then the region: holding the unscoped buffers at the launch memory,
    it reaches the region holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the transpose's result, the contraction's result and the concatenation's result;
    a buffer that is none of these three is found by the region as it was launched. -/
theorem V_of_not_result (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_not_result m c main_arg0 (by decide) (by decide) (by decide)
theorem V_main_arg1 (c : Dev nD) : V m c main_arg1 = m ((c : Thread nD τ).loc main_arg1) :=
  V_of_not_result m c main_arg1 (by decide) (by decide) (by decide)
theorem V_main_arg2 (c : Dev nD) : V m c main_arg2 = m ((c : Thread nD τ).loc main_arg2) :=
  V_of_not_result m c main_arg2 (by decide) (by decide) (by decide)
theorem V_main_arg3 (c : Dev nD) : V m c main_arg3 = m ((c : Thread nD τ).loc main_arg3) :=
  V_of_not_result m c main_arg3 (by decide) (by decide) (by decide)
theorem V_main_arg4 (c : Dev nD) : V m c main_arg4 = m ((c : Thread nD τ).loc main_arg4) :=
  V_of_not_result m c main_arg4 (by decide) (by decide) (by decide)

/-! ## The windows' blocks -/

/-- Window `w`'s block at grid point `t`: its array, as the region finds it, read through the block's rectangle. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window whose body leaves its block where it found it holds that block at every point, whether the
    point fetched it or not: where it was not fetched, the block index has not moved since the last fetch.
    Window 0 (fetched at every point). -/
theorem holds_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hkeep : ∀ t, (cfg0.win 0).cut (cfg0.grid.coords t) (dat.after 0 t) = dat.blockOf 0 t := fun t => by
    rw [hafter]; unfold Dat.blockOf iblk; rw [hA]; try rfl
  rw [dat.before_in_eq_fetched 0 rfl (fun _ => rfl) (fun _ _ _ => rfl) hkeep t d]
  unfold Dat.fetched Dat.blockOf iblk; rw [hA]; try rfl

/-- The same for window 1 (the whole matrix, fetched at the first point only). -/
theorem holds_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hkeep : ∀ t, (cfg0.win 1).cut (cfg0.grid.coords t) (dat.after 1 t) = dat.blockOf 1 t := fun t => by
    rw [hafter]; unfold Dat.blockOf iblk; rw [hA]; try rfl
  rw [dat.before_in_eq_fetched 1 rfl (fun _ => rfl) (fun _ _ _ => rfl) hkeep t d]
  unfold Dat.fetched Dat.blockOf iblk; rw [hA]; try rfl

/-! ## What the body leaves in the output block -/

/-- The three rectangles the body accesses: each is its whole buffer (offsets zero, the buffer's own extents). -/
abbrev rIn : Rect S128x40x64 := Rect.unit (s := S128x40x64) ![0, 0, 0] S128x40x64.size inb_S128x40x64_S128x40x64_0_0_0
abbrev rW : Rect S64x192 := Rect.unit (s := S64x192) ![0, 0] S64x192.size inb_S64x192_S64x192_0_0
abbrev rOut : Rect S128x40x64 := Rect.unit (s := S128x40x64) ![0, 0, 0] S128x40x64.size inb_S128x40x64_S128x40x64_0_0_0

/-- The output block after the body, as a function of the two input blocks: the one store's value, laid over the
    whole block. -/
def blockOut (x : Vec F S128x40x64 .f32) (w : Vec F S64x192 .f32) : Vec F S128x40x64 .f32 :=
  View.canon [⟨rOut, k0_pay1 (View.ld x rIn) (View.ld w rW)⟩]

/-- The store's rectangle starts at zero on every axis and is as long as the buffer on every axis: the buffer is one
    tile of that size, so every index of the buffer lies in the rectangle. -/
theorem rOut_covers (p : rOut.shape.Idx → Elt F .f32) (y : S128x40x64.Idx) :
    ∃ pc ∈ ([⟨rOut, p⟩] : List (View.Piece (Elt F) S128x40x64 .f32)), y ∈ pc.1.set :=
  View.cover_of_tiled [⟨rOut, p⟩] S128x40x64.size (by rfl) y

/-! ## The body's triple -/

set_option maxHeartbeats 1000000 in
/-- The body on whole staging buffers — the two inputs' at contents reading `x` and `w`, the output's at anything —
    runs to its return with the inputs' buffers as they were and the output's reading `blockOut x w`.  It loads the
    two inputs, loads the output buffer (a value it never uses), and stores the computed value over the whole
    output buffer. -/
theorem sound_kernel (c : Dev nD) (E : Set ℕ) (i : grid0.Coords)
    (a1 : Memref sig .tc .vmem S128x40x64 .f32) (h1 : a1.IsWhole)
    (a2 : Memref sig .tc .vmem S64x192 .f32) (h2 : a2.IsWhole)
    (a3 : Memref sig .tc .vmem S128x40x64 .f32) (h3 : a3.IsWhole)
    (x : Vec F S128x40x64 .f32) (w : Vec F S64x192 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (blockOut x w)) -∗ K ⟨⟩))
      ⊢ wp frame (wpE (defs₀ (F := F)) Variants.none c none) E (cc0__attn_kernel i a1 h1 a2 h2 a3 h3) K := by
  simp only [cc0__attn_kernel_eq_skeleton]; unfold cc0__attn_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rOut_covers _)

/-! ## The proof data -/

/-- On core `c`: the arrays as the region finds them; after the body at point `t` each input's buffer still at its
    block and the output's at `blockOut` of the two input blocks; the invariant only what the body never touches
    (the other scoped buffers and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = blockOut (iblk m c 0 t) (iblk m c 1 t) := by dsimp only [dats]

theorem before_in0 (c : Dev nD) (t : Fin cfg0.N) (d) : (dats m 0 c).before 0 t d = iblk m c 0 t :=
  holds_in0 m (dats m 0 c) (A_eq m c 0) (after_in0 m c) t d
theorem before_in1 (c : Dev nD) (t : Fin cfg0.N) (d) : (dats m 0 c).before 1 t d = iblk m c 1 t :=
  holds_in1 m (dats m 0 c) (A_eq m c 1) (after_in1 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which needs
-- plain definitions unfolded inside a metavariable's type
set_option backward.isDefEq.respectTransparency.types false in
/-- From any launch memory with all counters zero, every weakly fair execution of @main on the TensorCores
    terminates, and in every final state each array of the region holds what the proof data computes and every
    other unscoped buffer holds what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as they were launched.  The first is window 0's array: an input window's array
    is never written, so at the end it holds what the region found, which is the launch contents.  The other four
    are staged by no window: the region leaves them as it found them, which again is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩)
    (run_main m ρ)

end Cert.KernelIdeal.Attn

end
-- ==== Proof.AttnSpec.lean ====
/-
  Self-attention over the field axis, without head splitting, as one function of the argument arrays.

  For a batch element, write x for its 40 × 64 slab of the input, and Wq, Wk, Wv, Wr for the four 64 × 64 weights.
  The result at row q and column e is
      max (Σ_k softmax(S)[q, k] · (x·Wv)[k, e] + (x·Wr)[q, e], 0),
  where S is the 40 × 40 matrix of scores and softmax(S)[q, k] = exp(S[q, k] − top_q) / Σ_k' exp(S[q, k'] − top_q),
  top_q the largest entry of row q of S (the fold of max from −∞, met once more with −∞).
  The scores are spelt in two ways: (x·Wq)·(x·Wk)ᵀ, and x·(Wq·Wkᵀ)·xᵀ.  Over real entries the two agree (the product of
  matrices is associative and the transpose of a product is the product of the transposes in the other order), so the
  two results agree.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The input's shape, and a weight's. -/
abbrev SX : Shape := ⟨3, ![16384, 40, 64]⟩
abbrev SW : Shape := ⟨2, ![64, 64]⟩

/-- The words of −∞ and of 0, read as extended reals. -/
abbrev negInf : EReal := Ideal.ofBits .f32 0xFF800000#32
abbrev zeroW : EReal := Ideal.ofBits .f32 0x00000000#32

/-- The product x·w of a 40 × 64 slab with a 64 × 64 weight. -/
def proj (x : Fin 40 → Fin 64 → EReal) (w : Fin 64 → Fin 64 → EReal) (q : Fin 40) (e : Fin 64) : EReal :=
  ∑ d : Fin 64, x q d * w d e

/-- The scores as (x·Wq)·(x·Wk)ᵀ. -/
def scoresQK (x : Fin 40 → Fin 64 → EReal) (wq wk : Fin 64 → Fin 64 → EReal) (q k : Fin 40) : EReal :=
  ∑ e : Fin 64, proj x wq q e * proj x wk k e

/-- The scores as (x·a)·xᵀ for a 64 × 64 matrix a. -/
def scoresVia (x : Fin 40 → Fin 64 → EReal) (a : Fin 64 → Fin 64 → EReal) (q k : Fin 40) : EReal :=
  ∑ d' : Fin 64, (∑ d : Fin 64, x q d * a d d') * x k d'

/-- Wq·Wkᵀ. -/
def crossW (wq wk : Fin 64 → Fin 64 → EReal) (d d' : Fin 64) : EReal := ∑ e : Fin 64, wq d e * wk d' e

/-- The largest entry of a row of scores, from −∞. -/
def rowTop (s : Fin 40 → EReal) : EReal := max negInf ((Finset.univ : Finset (Fin 40)).fold max negInf s)

/-- exp(S[q, k] − top_q). -/
def expo (s : Fin 40 → Fin 40 → EReal) (q k : Fin 40) : EReal := Ideal.exp (s q k - rowTop (s q))

/-- The attention of one batch element from its scores, values and residual. -/
def attend (s : Fin 40 → Fin 40 → EReal) (v r : Fin 40 → Fin 64 → EReal) (q : Fin 40) (e : Fin 64) : EReal :=
  max ((∑ k : Fin 40, Ideal.div (expo s q k) (∑ k' : Fin 40, expo s q k') * v k e) + r q e) zeroW

/-- Batch element b of the input, and a weight, by coordinates. -/
def slab (X : SX.Idx → EReal) (b : Fin 16384) : Fin 40 → Fin 64 → EReal := fun q d => X (ix3 b q d)
def mat (W : SW.Idx → EReal) : Fin 64 → Fin 64 → EReal := fun d e => W (ix2 d e)

/-- The whole result, the scores spelt (x·Wq)·(x·Wk)ᵀ. -/
def attnQK (X : SX.Idx → EReal) (Wq Wk Wv Wr : SW.Idx → EReal) : SX.Idx → EReal := fun i =>
  attend (scoresQK (slab X (i 0)) (mat Wq) (mat Wk)) (proj (slab X (i 0)) (mat Wv)) (proj (slab X (i 0)) (mat Wr)) (i 1) (i 2)

/-- The whole result, the scores spelt x·(Wq·Wkᵀ)·xᵀ. -/
def attnVia (X : SX.Idx → EReal) (Wq Wk Wv Wr : SW.Idx → EReal) : SX.Idx → EReal := fun i =>
  attend (scoresVia (slab X (i 0)) (crossW (mat Wq) (mat Wk))) (proj (slab X (i 0)) (mat Wv)) (proj (slab X (i 0)) (mat Wr)) (i 1) (i 2)

/-- The two spellings give one result as soon as the two spellings of the scores agree on every batch element. -/
theorem attnVia_eq_attnQK (X : SX.Idx → EReal) (Wq Wk Wv Wr : SW.Idx → EReal)
    (h : ∀ (b : Fin 16384) (q k : Fin 40),
      scoresVia (slab X b) (crossW (mat Wq) (mat Wk)) q k = scoresQK (slab X b) (mat Wq) (mat Wk) q k) :
    attnVia X Wq Wk Wv Wr = attnQK X Wq Wk Wv Wr := by
  funext i
  unfold attnVia attnQK
  have hs : scoresVia (slab X (i 0)) (crossW (mat Wq) (mat Wk)) = scoresQK (slab X (i 0)) (mat Wq) (mat Wk) :=
    funext fun q => funext fun k => h (i 0) q k
  rw [hs]

end Cert.AttnSpec

end
-- ==== Proof.RefStages.lean ====
/-
  The reference, read stage by stage at coordinates: the three projections of a slab are sums over the 64 features,
  the scores are (x·Wq)·(x·Wk)ᵀ, each row's top is the fold of max from −∞, the weights are exponentials of the
  scores less the top over their row sum, and the result is the weighted sum of the values plus the residual
  projection, met with 0.  Together: the reference's result is the specification's function of the arguments.
-/
import proofs.«159285_j76630806495342_2_alg».proof.Proof.Gen.ReferenceIdeal.Read
import proofs.«159285_j76630806495342_2_alg».proof.Proof.AttnSpec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx
open Cert.AttnSpec

/-- The contents of the input array and of a weight, as extended reals. -/
abbrev CX : Type := BufTy.Contents (Elt Ideal) (⟨S16384x40x64, .f32⟩ : BufTy)
abbrev CW : Type := BufTy.Contents (Elt Ideal) (⟨S64x64, .f32⟩ : BufTy)

/-- A product of the input with a weight, at batch b, row q, column e: the sum over the features. -/
theorem stage_v0 (x0 : CX) (w : CW) (b : Fin 16384) (q : Fin 40) (e : Fin 64) :
    val_main_v0 (F := Ideal) x0 w (ix3 b q e) = proj (slab x0 b) (mat w) q e := by
  rw [val_main_v0_apply]
  exact Finset.sum_congr rfl fun d _ => by
    rw [show lidx_main_v0 (ix3 b q e) d = ix3 b q d from funext fun a => Fin.ext (by match a with | ⟨0, _⟩ => rfl | ⟨1, _⟩ => rfl | ⟨2, _⟩ => rfl),
      show ridx_main_v0 (ix3 b q e) d = ix2 d e from funext fun a => Fin.ext (by match a with | ⟨0, _⟩ => rfl | ⟨1, _⟩ => rfl)]
    rfl

theorem stage_v1 (x0 : CX) (w : CW) (b : Fin 16384) (q : Fin 40) (e : Fin 64) :
    val_main_v1 (F := Ideal) x0 w (ix3 b q e) = proj (slab x0 b) (mat w) q e := stage_v0 x0 w b q e

theorem stage_v2 (x0 : CX) (w : CW) (b : Fin 16384) (q : Fin 40) (e : Fin 64) :
    val_main_v2 (F := Ideal) x0 w (ix3 b q e) = proj (slab x0 b) (mat w) q e := stage_v0 x0 w b q e

theorem stage_v16 (x0 : CX) (w : CW) (b : Fin 16384) (q : Fin 40) (e : Fin 64) :
    val_main_v16 (F := Ideal) x0 w (ix3 b q e) = proj (slab x0 b) (mat w) q e := stage_v0 x0 w b q e

/-- The scores: row q of x·Wq against row k of x·Wk. -/
theorem stage_v3 (x0 : CX) (x1 x2 : CW) (b : Fin 16384) (q k : Fin 40) :
    val_main_v3 (F := Ideal) x0 x1 x2 (ix3 b q k) = scoresQK (slab x0 b) (mat x1) (mat x2) q k := by
  rw [val_main_v3_apply]
  exact Finset.sum_congr rfl fun e _ => by
    rw [show lidx_main_v3 (ix3 b q k) e = ix3 b q e from funext fun a => Fin.ext (by match a with | ⟨0, _⟩ => rfl | ⟨1, _⟩ => rfl | ⟨2, _⟩ => rfl),
      show ridx_main_v3 (ix3 b q k) e = ix3 b k e from funext fun a => Fin.ext (by match a with | ⟨0, _⟩ => rfl | ⟨1, _⟩ => rfl | ⟨2, _⟩ => rfl),
      stage_v0, stage_v1]

/-- The index of a row's k-th score: the row's index with k put back on the last axis. -/
theorem lift_row (h : S16384x40x40.Reduces [2] S16384x40) (b : Fin 16384) (q : Fin 40) (k : Fin (S16384x40x40.size 2)) :
    h.lift (ix2 b q) k = ix3 b q (⟨k.val, k.isLt⟩ : Fin 40) := by
  funext c; apply Fin.ext
  fin_cases c <;> rfl

/-- The largest score of row q, from −∞. -/
theorem stage_v4 (x0 : CX) (x1 x2 : CW) (b : Fin 16384) (q : Fin 40) :
    val_main_v4 (F := Ideal) x0 x1 x2 (ix2 b q)
      = (Finset.univ : Finset (Fin 40)).fold max negInf (scoresQK (slab x0 b) (mat x1) (mat x2) q) := by
  unfold val_main_v4
  have h : S16384x40x40.Reduces [2] S16384x40 := by decide
  rw [Host.reduce_eq_fold_single FloatOps.maximumf _ _ reducesTo_S16384x40x40_S16384x40_d2 h h_S_]
  have hf : (val_main_v3 (F := Ideal) x0 x1 x2 ∘ h.lift (ix2 b q)) = scoresQK (slab x0 b) (mat x1) (mat x2) q :=
    funext fun k => by
      show val_main_v3 (F := Ideal) x0 x1 x2 (h.lift (ix2 b q) k) = _
      rw [lift_row h b q k, stage_v3]
      rfl
  rw [hf]
  rfl

theorem stage_v6 (x0 : CX) (x1 x2 : CW) (b : Fin 16384) (q : Fin 40) :
    val_main_v6 (F := Ideal) x0 x1 x2 (ix2 b q) = rowTop (scoresQK (slab x0 b) (mat x1) (mat x2) q) := by
  rw [val_main_v6_apply, val_main_v5_apply, val_main_cst_0_apply, stage_v4]
  rfl

theorem stage_v8 (x0 : CX) (x1 x2 : CW) (b : Fin 16384) (q k : Fin 40) :
    val_main_v8 (F := Ideal) x0 x1 x2 (ix3 b q k) = rowTop (scoresQK (slab x0 b) (mat x1) (mat x2) q) := by
  rw [val_main_v8_apply, val_main_v7_apply,
    show idx_main_v7 (idx_main_v8 (ix3 b q k)) = ix2 b q from funext fun a => Fin.ext (by match a with | ⟨0, _⟩ => rfl | ⟨1, _⟩ => rfl),
    stage_v6]

/-- The exponential of a score less its row's top. -/
theorem stage_v10 (x0 : CX) (x1 x2 : CW) (b : Fin 16384) (q k : Fin 40) :
    val_main_v10 (F := Ideal) x0 x1 x2 (ix3 b q k) = expo (scoresQK (slab x0 b) (mat x1) (mat x2)) q k := by
  rw [val_main_v10_apply, val_main_v9_apply, stage_v3, stage_v8]
  rfl

/-- The row sum of the exponentials. -/
theorem stage_v11 (x0 : CX) (x1 x2 : CW) (b : Fin 16384) (q : Fin 40) :
    val_main_v11 (F := Ideal) x0 x1 x2 (ix2 b q) = ∑ k' : Fin 40, expo (scoresQK (slab x0 b) (mat x1) (mat x2)) q k' := by
  rw [val_main_v11_apply, val_main_cst_1_apply]
  show Ideal.ofBits .f32 0x00000000#32 + _ = _
  rw [Ideal.ofBits_zero_f32, zero_add]
  exact Finset.sum_congr rfl fun k' _ => by
    rw [show idx_main_v11 (ix2 b q) k' = ix3 b q k' from funext fun a => Fin.ext (by match a with | ⟨0, _⟩ => rfl | ⟨1, _⟩ => rfl | ⟨2, _⟩ => rfl),
      stage_v10]

theorem stage_v13 (x0 : CX) (x1 x2 : CW) (b : Fin 16384) (q k : Fin 40) :
    val_main_v13 (F := Ideal) x0 x1 x2 (ix3 b q k) = ∑ k' : Fin 40, expo (scoresQK (slab x0 b) (mat x1) (mat x2)) q k' := by
  rw [val_main_v13_apply, val_main_v12_apply,
    show idx_main_v12 (idx_main_v13 (ix3 b q k)) = ix2 b q from funext fun a => Fin.ext (by match a with | ⟨0, _⟩ => rfl | ⟨1, _⟩ => rfl),
    stage_v11]

/-- The weight of key k for query q. -/
theorem stage_v14 (x0 : CX) (x1 x2 : CW) (b : Fin 16384) (q k : Fin 40) :
    val_main_v14 (F := Ideal) x0 x1 x2 (ix3 b q k)
      = Ideal.div (expo (scoresQK (slab x0 b) (mat x1) (mat x2)) q k) (∑ k' : Fin 40, expo (scoresQK (slab x0 b) (mat x1) (mat x2)) q k') := by
  rw [val_main_v14_apply, stage_v10, stage_v13]
  rfl

/-- The weighted sum of the values. -/
theorem stage_v15 (x0 : CX) (x1 x2 x3 : CW) (b : Fin 16384) (q : Fin 40) (e : Fin 64) :
    val_main_v15 (F := Ideal) x0 x1 x2 x3 (ix3 b q e)
      = ∑ k : Fin 40, Ideal.div (expo (scoresQK (slab x0 b) (mat x1) (mat x2)) q k) (∑ k' : Fin 40, expo (scoresQK (slab x0 b) (mat x1) (mat x2)) q k')
          * proj (slab x0 b) (mat x3) k e := by
  rw [val_main_v15_apply]
  exact Finset.sum_congr rfl fun k _ => by
    rw [show lidx_main_v15 (ix3 b q e) k = ix3 b q k from funext fun a => Fin.ext (by match a with | ⟨0, _⟩ => rfl | ⟨1, _⟩ => rfl | ⟨2, _⟩ => rfl),
      show ridx_main_v15 (ix3 b q e) k = ix3 b k e from funext fun a => Fin.ext (by match a with | ⟨0, _⟩ => rfl | ⟨1, _⟩ => rfl | ⟨2, _⟩ => rfl),
      stage_v14, stage_v2]

/-- The reference's result at batch b, row q, column e. -/
theorem stage_v18 (x0 : CX) (x1 x2 x3 x4 : CW) (b : Fin 16384) (q : Fin 40) (e : Fin 64) :
    val_main_v18 (F := Ideal) x0 x1 x2 x3 x4 (ix3 b q e)
      = attend (scoresQK (slab x0 b) (mat x1) (mat x2)) (proj (slab x0 b) (mat x3)) (proj (slab x0 b) (mat x4)) q e := by
  rw [val_main_v18_apply, val_main_v17_apply, stage_v15, stage_v16, val_main_call0_v0_apply, val_main_call0_cst_apply]
  rfl

/-- The reference's result is the specification's function of the arguments. -/
theorem result_eq (x0 : CX) (x1 x2 x3 x4 : CW) : val_main_v18 (F := Ideal) x0 x1 x2 x3 x4 = attnQK x0 x1 x2 x3 x4 := by
  funext i
  obtain ⟨b, q, e, rfl⟩ : ∃ (b : Fin 16384) (q : Fin 40) (e : Fin 64), i = ix3 b q e := ⟨i 0, i 1, i 2, eq_ix3 i⟩
  rw [stage_v18]
  rfl

end Cert.ReferenceIdeal.Stages

end
-- ==== Proof.KernelBlock.lean ====
/-
  One grid point's block of the result as a function of the block of inputs (128 batch elements) and of the fused
  64 × 192 weight [a | Wv | Wr]:  every batch element's rows are multiplied by the fused weight in one product; its first
  64 columns give x·a, the next 64 the values x·Wv, the last 64 the residual x·Wr; the scores are (x·a)·xᵀ; the weights
  are the exponentials of the scores less their row's top over their row sum; the result is the weighted sum of the
  values plus the residual, met with 0.  Read at batch element p, row q and column e this is the specification's
  attention of the slab p with the three column groups of the fused weight.
-/
import proofs.«159285_j76630806495342_2_alg».proof.Proof.Gen.KernelIdeal.Skeleton
import proofs.«159285_j76630806495342_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.AttnSpec

/-! ## The body's value in four steps -/

/-- Every row of the block times the fused weight. -/
def fused (v0 : Vec Ideal S128x40x64 .f32) (v3 : Vec Ideal S64x192 .f32) : FVec Ideal S128x40x192 .f32 :=
  shapeCast S128x40x192
    (matmul dot_S5120x64_S64x192_S5120x192_1_0_0_1_n_n none
      (shapeCast S5120x64 (truncf .bf16 v0 bitsLt_bf16_f32) shapeCasts_S128x40x64_S5120x64)
      (truncf .bf16 (shapeCast S64x192 v3 shapeCasts_S64x192_S64x192) bitsLt_bf16_f32)
      (constant S5120x192 .f32 0x00000000#32))
    shapeCasts_S5120x192_S128x40x192

/-- The scores: the first column group against the block's own rows. -/
def scoresB (v0 : Vec Ideal S128x40x64 .f32) (v7 : FVec Ideal S128x40x192 .f32) : FVec Ideal S128x40x40 .f32 :=
  matmul dot_S128x40x64_S128x40x64_S128x40x40_2_2_1_1_0_0 none
    (truncf .bf16 (extractStridedSlice S128x40x64 ![0, 0, 0] v7 slices_S128x40x192_o0_0_0_S128x40x64) bitsLt_bf16_f32)
    (truncf .bf16 v0 bitsLt_bf16_f32) (constant S128x40x40 .f32 0x00000000#32)

/-- Each row's top, spread back over the row. -/
def topB (s : FVec Ideal S128x40x40 .f32) : FVec Ideal S128x40x40 .f32 :=
  broadcastTo S128x40x40
    (shapeCast S128x40x1
      (maximumf (broadcast S128x40 (Scalar.ofBits .f32 0xFF800000#32))
        (multiReduction .maximumf [2] S128x40 s 0xFF800000#32 reduces_S128x40x40_S128x40 (.inl rfl) rfl))
      shapeCasts_S128x40_S128x40x1)
    broadcasts_S128x40x1_S128x40x40

/-- The exponentials of the scores less their row's top. -/
def expB (s : FVec Ideal S128x40x40 .f32) : FVec Ideal S128x40x40 .f32 := exp (subf s (topB s))

/-- The weights: the exponentials over their row sums. -/
def weightsB (s : FVec Ideal S128x40x40 .f32) : FVec Ideal S128x40x40 .f32 :=
  divf (expB s)
    (broadcastTo S128x40x40
      (shapeCast S128x40x1
        (multiReduction .add [2] S128x40 (expB s) 0x00000000#32 reduces_S128x40x40_S128x40 (.inl rfl) rfl)
        shapeCasts_S128x40_S128x40x1)
      broadcasts_S128x40x1_S128x40x40)

/-- The weighted sum of the second column group plus the third, met with 0. -/
def outB (w : FVec Ideal S128x40x40 .f32) (v7 : FVec Ideal S128x40x192 .f32) : FVec Ideal S128x40x64 .f32 :=
  maximumf
    (addf
      (matmul dot_S128x40x40_S128x40x64_S128x40x64_2_1_1_2_0_0 none (truncf .bf16 w bitsLt_bf16_f32)
        (truncf .bf16 (extractStridedSlice S128x40x64 ![0, 0, 64] v7 slices_S128x40x192_o0_0_64_S128x40x64) bitsLt_bf16_f32)
        (constant S128x40x64 .f32 0x00000000#32))
      (extractStridedSlice S128x40x64 ![0, 0, 128] v7 slices_S128x40x192_o0_0_128_S128x40x64))
    (broadcast S128x40x64 (Scalar.ofBits .f32 0x00000000#32))

/-- The body's stored value is the four steps composed. -/
theorem pay_eq (v0 : Vec Ideal S128x40x64 .f32) (v3 : Vec Ideal S64x192 .f32) :
    k0_pay1 (F := Ideal) v0 v3 = outB (weightsB (scoresB v0 (fused v0 v3))) (fused v0 v3) := rfl

/-! ## The fused product at an index -/

local notation "DF" => dot_S5120x64_S64x192_S5120x192_1_0_0_1_n_n

theorem fused_l0 (i : S5120x192.Idx) (κ : (DF).contr.Idx) : ((DF).lhsIdx i κ 0).val = (i 0).val := by
  unfold DotDims.lhsIdx
  rw [dif_neg (show ¬(0 : Fin S5120x64.rank) ∈ (DF).lhsBatch by decide), dif_pos (show (0 : Fin S5120x64.rank) ∈ (DF).lhsNonContracting by decide)]
  rfl
theorem fused_l1 (i : S5120x192.Idx) (κ : (DF).contr.Idx) : ((DF).lhsIdx i κ 1).val = (κ ⟨0, by decide⟩).val :=
  (DF).lhsIdx_val_of_single rfl i κ
theorem fused_r0 (i : S5120x192.Idx) (κ : (DF).contr.Idx) : ((DF).rhsIdx i κ 0).val = (κ ⟨0, by decide⟩).val :=
  (DF).rhsIdx_val_of_single rfl i κ
theorem fused_r1 (i : S5120x192.Idx) (κ : (DF).contr.Idx) : ((DF).rhsIdx i κ 1).val = (i 1).val := by
  unfold DotDims.rhsIdx
  rw [dif_neg (show ¬(1 : Fin S64x192.rank) ∈ (DF).rhsBatch by decide), dif_pos (show (1 : Fin S64x192.rank) ∈ (DF).rhsNonContracting by decide)]
  rfl

/-- Row (p, q) of the block times column n of the fused weight. -/
theorem fused_apply (v0 : Vec Ideal S128x40x64 .f32) (v3 : Vec Ideal S64x192 .f32) (p : Fin 128) (q : Fin 40) (n : Fin 192) :
    fused v0 v3 (ix3 p q n) = ∑ d : Fin 64, v0 (ix3 p q d) * v3 (ix2 d n) := by
  have hr : p.val * 40 + q.val < 5120 := by have := p.isLt; have := q.isLt; omega
  unfold fused
  refine (shapeCast_apply _ shapeCasts_S5120x192_S128x40x192 (ix3 p q n) (ix2 (⟨p.val * 40 + q.val, hr⟩ : Fin 5120) n) (by
    rw [Shape.rowMajor_val_two, Shape.rowMajor_val_three]; rfl)).trans ?_
  refine (Ideal.matmul_constant_zero_apply DF none _ _ _).trans ?_
  rw [← Equiv.sum_comp (contrEquiv1 DF 64 rfl rfl).symm]
  refine Finset.sum_congr rfl fun d _ => ?_
  have hd := contrEquiv1_symm_val DF 64 rfl rfl d
  have el : (DF).lhsIdx (ix2 (⟨p.val * 40 + q.val, hr⟩ : Fin 5120) n) ((contrEquiv1 DF 64 rfl rfl).symm d)
      = ix2 (⟨p.val * 40 + q.val, hr⟩ : Fin 5120) d := funext fun a => Fin.ext (by
    match a with
    | ⟨0, _⟩ => exact fused_l0 _ _
    | ⟨1, _⟩ => exact (fused_l1 _ _).trans hd)
  have er : (DF).rhsIdx (ix2 (⟨p.val * 40 + q.val, hr⟩ : Fin 5120) n) ((contrEquiv1 DF 64 rfl rfl).symm d) = ix2 d n :=
    funext fun a => Fin.ext (by
    match a with
    | ⟨0, _⟩ => exact (fused_r0 _ _).trans hd
    | ⟨1, _⟩ => exact fused_r1 _ _)
  rw [el, er, truncf_apply, shapeCast_self]
  refine congrArg (· * v3 (ix2 d n)) ?_
  refine (shapeCast_apply _ shapeCasts_S128x40x64_S5120x64 _ (ix3 p q d) (by
    rw [Shape.rowMajor_val_two, Shape.rowMajor_val_three]; rfl)).trans ?_
  rfl

/-! ## The scores at an index -/

local notation "DS" => dot_S128x40x64_S128x40x64_S128x40x40_2_2_1_1_0_0

theorem scores_l0 (i : S128x40x40.Idx) (κ : (DS).contr.Idx) : ((DS).lhsIdx i κ 0).val = (i 0).val := by
  unfold DotDims.lhsIdx
  rw [dif_pos (show (0 : Fin S128x40x64.rank) ∈ (DS).lhsBatch by decide)]
  rfl
theorem scores_l1 (i : S128x40x40.Idx) (κ : (DS).contr.Idx) : ((DS).lhsIdx i κ 1).val = (i 1).val := by
  unfold DotDims.lhsIdx
  rw [dif_neg (show ¬(1 : Fin S128x40x64.rank) ∈ (DS).lhsBatch by decide), dif_pos (show (1 : Fin S128x40x64.rank) ∈ (DS).lhsNonContracting by decide)]
  rfl
theorem scores_l2 (i : S128x40x40.Idx) (κ : (DS).contr.Idx) : ((DS).lhsIdx i κ 2).val = (κ ⟨0, by decide⟩).val :=
  (DS).lhsIdx_val_of_single rfl i κ
theorem scores_r0 (i : S128x40x40.Idx) (κ : (DS).contr.Idx) : ((DS).rhsIdx i κ 0).val = (i 0).val := by
  unfold DotDims.rhsIdx
  rw [dif_pos (show (0 : Fin S128x40x64.rank) ∈ (DS).rhsBatch by decide)]
  rfl
theorem scores_r1 (i : S128x40x40.Idx) (κ : (DS).contr.Idx) : ((DS).rhsIdx i κ 1).val = (i 2).val := by
  unfold DotDims.rhsIdx
  rw [dif_neg (show ¬(1 : Fin S128x40x64.rank) ∈ (DS).rhsBatch by decide), dif_pos (show (1 : Fin S128x40x64.rank) ∈ (DS).rhsNonContracting by decide)]
  rfl
theorem scores_r2 (i : S128x40x40.Idx) (κ : (DS).contr.Idx) : ((DS).rhsIdx i κ 2).val = (κ ⟨0, by decide⟩).val :=
  (DS).rhsIdx_val_of_single rfl i κ

/-- Column d' of the 192, as one of the first 64. -/
abbrev colA (d' : Fin 64) : Fin 192 := ⟨d'.val, by have := d'.isLt; omega⟩
/-- Column 64 + e, and column 128 + e. -/
abbrev colV (e : Fin 64) : Fin 192 := ⟨64 + e.val, by have := e.isLt; omega⟩
abbrev colR (e : Fin 64) : Fin 192 := ⟨128 + e.val, by have := e.isLt; omega⟩

/-- The score of query row q against key row k in batch element p. -/
theorem scoresB_apply (v0 : Vec Ideal S128x40x64 .f32) (v7 : FVec Ideal S128x40x192 .f32) (p : Fin 128) (q k : Fin 40) :
    scoresB v0 v7 (ix3 p q k) = ∑ d' : Fin 64, v7 (ix3 p q (colA d')) * v0 (ix3 p k d') := by
  unfold scoresB
  refine (Ideal.matmul_constant_zero_apply DS none _ _ _).trans ?_
  rw [← Equiv.sum_comp (contrEquiv1 DS 64 rfl rfl).symm]
  refine Finset.sum_congr rfl fun d' _ => ?_
  have hd := contrEquiv1_symm_val DS 64 rfl rfl d'
  have el : (DS).lhsIdx (ix3 p q k) ((contrEquiv1 DS 64 rfl rfl).symm d') = ix3 p q d' := funext fun a => Fin.ext (by
    match a with
    | ⟨0, _⟩ => exact scores_l0 _ _
    | ⟨1, _⟩ => exact scores_l1 _ _
    | ⟨2, _⟩ => exact (scores_l2 _ _).trans hd)
  have er : (DS).rhsIdx (ix3 p q k) ((contrEquiv1 DS 64 rfl rfl).symm d') = ix3 p k d' := funext fun a => Fin.ext (by
    match a with
    | ⟨0, _⟩ => exact scores_r0 _ _
    | ⟨1, _⟩ => exact scores_r1 _ _
    | ⟨2, _⟩ => exact (scores_r2 _ _).trans hd)
  rw [el, er, truncf_apply, truncf_apply]
  refine congrArg (· * v0 (ix3 p k d')) ?_
  exact extractStridedSlice_apply _ v7 slices_S128x40x192_o0_0_0_S128x40x64 (ix3 p q d') (ix3 p q (colA d')) (fun a => by
    match a with
    | ⟨0, _⟩ => show p.val = 0 + p.val; omega
    | ⟨1, _⟩ => show q.val = 0 + q.val; omega
    | ⟨2, _⟩ => show d'.val = 0 + d'.val; omega)

/-! ## The softmax at an index -/

/-- Row (p, q) with k put back on the last axis. -/
theorem lift_rowB (h : S128x40x40.Reduces [2] S128x40) (p : Fin 128) (q : Fin 40) (k : Fin (S128x40x40.size 2)) :
    h.lift (ix2 p q) k = ix3 p q (⟨k.val, k.isLt⟩ : Fin 40) := by
  funext c; apply Fin.ext
  fin_cases c <;> rfl

/-- A value per row, spread over the row's 40 places, read back. -/
theorem spread_apply (f : FVec Ideal S128x40 .f32) (p : Fin 128) (q k : Fin 40) :
    broadcastTo S128x40x40 (shapeCast S128x40x1 f shapeCasts_S128x40_S128x40x1) broadcasts_S128x40x1_S128x40x40 (ix3 p q k)
      = f (ix2 p q) := by
  refine (broadcastTo_apply _ broadcasts_S128x40x1_S128x40x40 (ix3 p q k) (ix3 p q (0 : Fin 1)) (fun a => by
    match a with
    | ⟨0, _⟩ => show p.val = if (128 : Nat) = 1 then 0 else p.val; rw [if_neg (by decide)]
    | ⟨1, _⟩ => show q.val = if (40 : Nat) = 1 then 0 else q.val; rw [if_neg (by decide)]
    | ⟨2, _⟩ => show 0 = if (1 : Nat) = 1 then 0 else k.val; rw [if_pos rfl])).trans ?_
  exact shapeCast_apply _ shapeCasts_S128x40_S128x40x1 (ix3 p q (0 : Fin 1)) (ix2 p q) (by
    rw [Shape.rowMajor_val_two, Shape.rowMajor_val_three]
    show p.val * 40 + q.val = (p.val * 40 + q.val) * 1 + 0
    omega)

/-- The row's scores of batch element p as a function of the two row indices. -/
def rows (s : FVec Ideal S128x40x40 .f32) (p : Fin 128) : Fin 40 → Fin 40 → EReal := fun q k => s (ix3 p q k)

theorem topB_apply (s : FVec Ideal S128x40x40 .f32) (p : Fin 128) (q k : Fin 40) :
    topB s (ix3 p q k) = rowTop (rows s p q) := by
  unfold topB
  refine (spread_apply _ p q k).trans ?_
  show max (Ideal.ofBits .f32 0xFF800000#32) _ = _
  unfold rowTop
  refine congrArg (max negInf) ?_
  refine (Ideal.multiReduction_maximumf_single s 0xFF800000#32 reduces_S128x40x40_S128x40 (.inl rfl) rfl (ix2 p q)).trans ?_
  have hf : (s ∘ (reduces_S128x40x40_S128x40).lift (ix2 p q)) = rows s p q := funext fun k' => by
    show s ((reduces_S128x40x40_S128x40).lift (ix2 p q) k') = _
    rw [lift_rowB]
    rfl
  rw [hf]
  rfl

theorem expB_apply (s : FVec Ideal S128x40x40 .f32) (p : Fin 128) (q k : Fin 40) :
    expB s (ix3 p q k) = expo (rows s p) q k := by
  show Ideal.exp (s (ix3 p q k) - topB s (ix3 p q k)) = _
  rw [topB_apply]
  rfl

theorem weightsB_apply (s : FVec Ideal S128x40x40 .f32) (p : Fin 128) (q k : Fin 40) :
    weightsB s (ix3 p q k) = Ideal.div (expo (rows s p) q k) (∑ k' : Fin 40, expo (rows s p) q k') := by
  unfold weightsB
  show Ideal.div (expB s (ix3 p q k)) _ = _
  rw [expB_apply]
  refine congrArg (Ideal.div _) ?_
  refine (spread_apply _ p q k).trans ?_
  refine (Ideal.multiReduction_add_single (expB s) 0x00000000#32 reduces_S128x40x40_S128x40 (.inl rfl) rfl (ix2 p q)).trans ?_
  exact Finset.sum_congr rfl fun k' _ => by
    rw [lift_rowB, expB_apply]
    rfl

/-! ## The result at an index -/

local notation "DO" => dot_S128x40x40_S128x40x64_S128x40x64_2_1_1_2_0_0

theorem out_l0 (i : S128x40x64.Idx) (κ : (DO).contr.Idx) : ((DO).lhsIdx i κ 0).val = (i 0).val := by
  unfold DotDims.lhsIdx
  rw [dif_pos (show (0 : Fin S128x40x40.rank) ∈ (DO).lhsBatch by decide)]
  rfl
theorem out_l1 (i : S128x40x64.Idx) (κ : (DO).contr.Idx) : ((DO).lhsIdx i κ 1).val = (i 1).val := by
  unfold DotDims.lhsIdx
  rw [dif_neg (show ¬(1 : Fin S128x40x40.rank) ∈ (DO).lhsBatch by decide), dif_pos (show (1 : Fin S128x40x40.rank) ∈ (DO).lhsNonContracting by decide)]
  rfl
theorem out_l2 (i : S128x40x64.Idx) (κ : (DO).contr.Idx) : ((DO).lhsIdx i κ 2).val = (κ ⟨0, by decide⟩).val :=
  (DO).lhsIdx_val_of_single rfl i κ
theorem out_r0 (i : S128x40x64.Idx) (κ : (DO).contr.Idx) : ((DO).rhsIdx i κ 0).val = (i 0).val := by
  unfold DotDims.rhsIdx
  rw [dif_pos (show (0 : Fin S128x40x64.rank) ∈ (DO).rhsBatch by decide)]
  rfl
theorem out_r1 (i : S128x40x64.Idx) (κ : (DO).contr.Idx) : ((DO).rhsIdx i κ 1).val = (κ ⟨0, by decide⟩).val :=
  (DO).rhsIdx_val_of_single rfl i κ
theorem out_r2 (i : S128x40x64.Idx) (κ : (DO).contr.Idx) : ((DO).rhsIdx i κ 2).val = (i 2).val := by
  unfold DotDims.rhsIdx
  rw [dif_neg (show ¬(2 : Fin S128x40x64.rank) ∈ (DO).rhsBatch by decide), dif_pos (show (2 : Fin S128x40x64.rank) ∈ (DO).rhsNonContracting by decide)]
  rfl

theorem outB_apply (w : FVec Ideal S128x40x40 .f32) (v7 : FVec Ideal S128x40x192 .f32) (p : Fin 128) (q : Fin 40) (e : Fin 64) :
    outB w v7 (ix3 p q e)
      = max ((∑ k : Fin 40, w (ix3 p q k) * v7 (ix3 p k (colV e))) + v7 (ix3 p q (colR e))) zeroW := by
  unfold outB
  show max (_ + _) (Ideal.ofBits .f32 0x00000000#32) = _
  refine congrArg (max · zeroW) ?_
  refine congr (congrArg HAdd.hAdd ?_) ?_
  · refine (Ideal.matmul_constant_zero_apply DO none _ _ _).trans ?_
    rw [← Equiv.sum_comp (contrEquiv1 DO 40 rfl rfl).symm]
    refine Finset.sum_congr rfl fun k _ => ?_
    have hk := contrEquiv1_symm_val DO 40 rfl rfl k
    have el : (DO).lhsIdx (ix3 p q e) ((contrEquiv1 DO 40 rfl rfl).symm k) = ix3 p q k := funext fun a => Fin.ext (by
      match a with
      | ⟨0, _⟩ => exact out_l0 _ _
      | ⟨1, _⟩ => exact out_l1 _ _
      | ⟨2, _⟩ => exact (out_l2 _ _).trans hk)
    have er : (DO).rhsIdx (ix3 p q e) ((contrEquiv1 DO 40 rfl rfl).symm k) = ix3 p k e := funext fun a => Fin.ext (by
      match a with
      | ⟨0, _⟩ => exact out_r0 _ _
      | ⟨1, _⟩ => exact (out_r1 _ _).trans hk
      | ⟨2, _⟩ => exact out_r2 _ _)
    rw [el, er, truncf_apply, truncf_apply]
    refine congrArg (w (ix3 p q k) * ·) ?_
    exact extractStridedSlice_apply _ v7 slices_S128x40x192_o0_0_64_S128x40x64 (ix3 p k e) (ix3 p k (colV e)) (fun a => by
      match a with
      | ⟨0, _⟩ => show p.val = 0 + p.val; omega
      | ⟨1, _⟩ => show k.val = 0 + k.val; omega
      | ⟨2, _⟩ => show 64 + e.val = 64 + e.val; rfl)
  · exact extractStridedSlice_apply _ v7 slices_S128x40x192_o0_0_128_S128x40x64 (ix3 p q e) (ix3 p q (colR e)) (fun a => by
      match a with
      | ⟨0, _⟩ => show p.val = 0 + p.val; omega
      | ⟨1, _⟩ => show q.val = 0 + q.val; omega
      | ⟨2, _⟩ => show 128 + e.val = 128 + e.val; rfl)

/-! ## The body's value is the attention of its slab -/

/-- Batch element p of the block, and the three column groups of the fused weight. -/
def slabB (v0 : Vec Ideal S128x40x64 .f32) (p : Fin 128) : Fin 40 → Fin 64 → EReal := fun q d => v0 (ix3 p q d)
def grpA (v3 : Vec Ideal S64x192 .f32) : Fin 64 → Fin 64 → EReal := fun d d' => v3 (ix2 d (colA d'))
def grpV (v3 : Vec Ideal S64x192 .f32) : Fin 64 → Fin 64 → EReal := fun d e => v3 (ix2 d (colV e))
def grpR (v3 : Vec Ideal S64x192 .f32) : Fin 64 → Fin 64 → EReal := fun d e => v3 (ix2 d (colR e))

theorem pay_apply (v0 : Vec Ideal S128x40x64 .f32) (v3 : Vec Ideal S64x192 .f32) (p : Fin 128) (q : Fin 40) (e : Fin 64) :
    k0_pay1 (F := Ideal) v0 v3 (ix3 p q e)
      = attend (scoresVia (slabB v0 p) (grpA v3)) (proj (slabB v0 p) (grpV v3)) (proj (slabB v0 p) (grpR v3)) q e := by
  rw [pay_eq, outB_apply]
  unfold attend
  have hs : rows (scoresB v0 (fused v0 v3)) p = scoresVia (slabB v0 p) (grpA v3) := funext fun q' => funext fun k' => by
    show scoresB v0 (fused v0 v3) (ix3 p q' k') = _
    rw [scoresB_apply]
    unfold scoresVia
    exact Finset.sum_congr rfl fun d' _ => by rw [fused_apply]; rfl
  refine congrArg (max · zeroW) ?_
  refine congr (congrArg HAdd.hAdd ?_) ?_
  · exact Finset.sum_congr rfl fun k _ => by
      rw [weightsB_apply, hs, fused_apply]
      rfl
  · rw [fused_apply]
    rfl

/-! ## The same function over the whole arrays -/

/-- The attention of every batch element of the whole input with the column groups of a fused weight. -/
def attnFused (X : S16384x40x64.Idx → EReal) (W : S64x192.Idx → EReal) : S16384x40x64.Idx → EReal := fun i =>
  attend (scoresVia (slab X (i 0)) (grpA W)) (proj (slab X (i 0)) (grpV W)) (proj (slab X (i 0)) (grpR W)) (i 1) (i 2)

/-- When the fused weight is [Wq·Wkᵀ | Wv | Wr], that is the specification's second spelling. -/
theorem attnFused_eq (X : S16384x40x64.Idx → EReal) (W : S64x192.Idx → EReal) (Wq Wk Wv Wr : SW.Idx → EReal)
    (hA : grpA W = crossW (mat Wq) (mat Wk)) (hV : grpV W = mat Wv) (hR : grpR W = mat Wr) :
    attnFused X W = attnVia X Wq Wk Wv Wr := by
  unfold attnFused attnVia
  rw [hA, hV, hR]

end Cert.KernelIdeal.Block

end
-- ==== Proof.KernelValue.lean ====
/-
  From blocks to the whole result.  Grid point t stages batch elements 128·t … 128·t + 127 of the input and the whole
  fused weight, and writes back batch elements 128·t … 128·t + 127 of the result.  What it writes back is the block of
  ONE function of the whole arrays (the attention of every batch element with the fused weight's column groups), and the
  128 blocks cover the result array: batch element b lies in block b / 128.  So after the run the result array is that
  function of the arrays the region found.
-/
import proofs.«159285_j76630806495342_2_alg».proof.Proof.IdealLaunch
import proofs.«159285_j76630806495342_2_alg».proof.Proof.KernelBlock
import Idealize.ShloMosaic.Lib.Pipeline.Value

set_option maxRecDepth 16384

noncomputable section

namespace Cert.KernelIdeal.Whole

open Cert.KernelIdeal Cert.KernelIdeal.Gen Cert.KernelIdeal.Attn Cert.KernelIdeal.Block Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the grid: the input's and the result's blocks move with the point along the batch axis
    and stay at 0 on the others; the fused weight's one block stays at the origin. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 128 := Nat.lt_of_lt_of_eq t.isLt N_0

/-- The attention at row q, column e depends on the slab and the fused weight only. -/
theorem attend_congr (x x' : Fin 40 → Fin 64 → EReal) (W W' : Vec Ideal S64x192 .f32) (hx : x = x') (hW : W = W')
    (q : Fin 40) (e : Fin 64) :
    attend (scoresVia x (grpA W)) (proj x (grpV W)) (proj x (grpR W)) q e
      = attend (scoresVia x' (grpA W')) (proj x' (grpV W')) (proj x' (grpR W')) q e := by
  subst hx; subst hW; rfl

/-- What point t writes back is block t of the attention of the whole input with the fused weight. -/
theorem flushed_eq (c : Dev nD) (t : Fin cfg0.N) :
    (dats m 0 c).flushed 2 t
      = ((cfg0.win 2).blk t).view.read (Elt Ideal) (attnFused (V m c main_arg0) (V m c main_v2)) := by
  show (cfg0.win 2).cut (grid0.coords t) ((dats m 0 c).after 2 t) = _
  rw [after_out]
  unfold blockOut
  rw [View.canon_unit_zero zero3]
  simp only [View.ld_unit_zero (S := S128x40x64) zero3, View.ld_unit_zero (S := S64x192) zero2]
  obtain ⟨a0, a1, a2, w0, w1, o0, o1, o2⟩ := block_index t
  have ht := point_lt t
  refine funext fun (j : S128x40x64.Idx) => ?_
  obtain ⟨p, q, e, rfl⟩ : ∃ (p : Fin 128) (q : Fin 40) (e : Fin 64), j = ix3 p q e := ⟨j 0, j 1, j 2, eq_ix3 j⟩
  have hb : t.val * 128 + p.val < 16384 := by have := p.isLt; omega
  show k0_pay1 (F := Ideal) (iblk m c 0 t) (iblk m c 1 t) (ix3 p q e)
    = attnFused (V m c main_arg0) (V m c main_v2) (((cfg0.win 2).blk t).view.emb (ix3 p q e))
  refine (pay_apply (iblk m c 0 t) (iblk m c 1 t) p q e).trans ?_
  have hemb : ((cfg0.win 2).blk t).view.emb (ix3 p q e) = ix3 (⟨t.val * 128 + p.val, hb⟩ : Fin 16384) q e := by
    funext a; apply Fin.ext
    match a with
    | ⟨0, _⟩ => show win0_2.index t (0 : Fin 3) * 128 + 1 * p.val = t.val * 128 + p.val; omega
    | ⟨1, _⟩ => show win0_2.index t (1 : Fin 3) * 40 + 1 * q.val = q.val; omega
    | ⟨2, _⟩ => show win0_2.index t (2 : Fin 3) * 64 + 1 * e.val = e.val; omega
  rw [hemb]
  have hx : slabB (iblk m c 0 t) p = slab (V m c main_arg0) (⟨t.val * 128 + p.val, hb⟩ : Fin 16384) :=
    funext fun q' => funext fun d => by
      show V m c main_arg0 (((cfg0.win 0).blk t).view.emb (ix3 p q' d)) = V m c main_arg0 (ix3 (⟨t.val * 128 + p.val, hb⟩ : Fin 16384) q' d)
      refine congrArg (V m c main_arg0) (funext fun a => Fin.ext ?_)
      match a with
      | ⟨0, _⟩ => show win0_0.index t (0 : Fin 3) * 128 + 1 * p.val = t.val * 128 + p.val; omega
      | ⟨1, _⟩ => show win0_0.index t (1 : Fin 3) * 40 + 1 * q'.val = q'.val; omega
      | ⟨2, _⟩ => show win0_0.index t (2 : Fin 3) * 64 + 1 * d.val = d.val; omega
  have hw : (iblk m c 1 t : Vec Ideal S64x192 .f32) = V m c main_v2 := funext fun y => by
    show V m c main_v2 (((cfg0.win 1).blk t).view.emb y) = V m c main_v2 y
    refine congrArg (V m c main_v2) (funext fun a => Fin.ext ?_)
    match a with
    | ⟨0, _⟩ => show win0_1.index t (0 : Fin 2) * 64 + 1 * (y 0).val = (y 0).val; omega
    | ⟨1, _⟩ => show win0_1.index t (1 : Fin 2) * 192 + 1 * (y 1).val = (y 1).val; omega
  exact attend_congr _ _ _ _ hx hw q e

/-- An index of the result lies in point t's block iff each coordinate lies in the block's range on its axis. -/
theorem mem_blk (t : Fin cfg0.N) (i : S16384x40x64.Idx) :
    i ∈ ((cfg0.win 2).blk t).view.set ↔ ∀ a : Fin 3, win0_2.index t a * S128x40x64.size a ≤ (i a).val
      ∧ (i a).val < win0_2.index t a * S128x40x64.size a + S128x40x64.size a := by
  show i ∈ ((View.whole main_v3).slice (win0_2.rect t)).set ↔ _
  rw [View.set_slice_whole, Rect.mem_set_unit]
  exact Iff.rfl

/-- Batch element b lies in block b / 128: the blocks cover the result. -/
theorem cover (i : S16384x40x64.Idx) :
    ∃ t : Fin cfg0.N, (cfg0.win 2).flush t = true ∧ i ∈ ((cfg0.win 2).blk t).view.set := by
  have hi0 : (i 0).val < 16384 := (i 0).isLt
  have hi1 : (i 1).val < 40 := (i 1).isLt
  have hi2 : (i 2).val < 64 := (i 2).isLt
  have hlt : (i 0).val / 128 < cfg0.N := by rw [show cfg0.N = 128 from N_0]; omega
  obtain ⟨_, _, _, _, _, o0, o1, o2⟩ := block_index ⟨(i 0).val / 128, hlt⟩
  refine ⟨⟨(i 0).val / 128, hlt⟩, flush0_2 _, ?_⟩
  rw [mem_blk]
  intro a
  match a with
  | ⟨0, _⟩ =>
    show win0_2.index ⟨(i 0).val / 128, hlt⟩ (0 : Fin 3) * 128 ≤ (i 0).val
      ∧ (i 0).val < win0_2.index ⟨(i 0).val / 128, hlt⟩ (0 : Fin 3) * 128 + 128
    rw [o0]; show (i 0).val / 128 * 128 ≤ (i 0).val ∧ (i 0).val < (i 0).val / 128 * 128 + 128; omega
  | ⟨1, _⟩ =>
    show win0_2.index ⟨(i 0).val / 128, hlt⟩ (1 : Fin 3) * 40 ≤ (i 1).val
      ∧ (i 1).val < win0_2.index ⟨(i 0).val / 128, hlt⟩ (1 : Fin 3) * 40 + 40
    omega
  | ⟨2, _⟩ =>
    show win0_2.index ⟨(i 0).val / 128, hlt⟩ (2 : Fin 3) * 64 ≤ (i 2).val
      ∧ (i 2).val < win0_2.index ⟨(i 0).val / 128, hlt⟩ (2 : Fin 3) * 64 + 64
    omega

/-- After the run the result array is the attention of the whole input with the fused weight, both as the region
    found them. -/
theorem final (c : Dev nD) :
    (dats m 0 c).arrAt 2 cfg0.N = attnFused (V m c main_arg0) (V m c main_v2) :=
  (dats m 0 c).arrAt_eq_of_cover 2 _ (fun t _ => flushed_eq m c t) cover

end Cert.KernelIdeal.Whole

end
-- ==== Proof.FusedWeight.lean ====
import proofs.«159285_j76630806495342_2_alg».proof.Proof.Gen.KernelIdeal.Launch
import Idealize.ShloMosaic.Lib.ValueIdx
import Idealize.ShloMosaic.Lib.Pipeline.Value
import Idealize.ShloMosaic.Lib.StableHlo.Run
import Idealize.ShloMosaic.PureOps.Ideal.Laws

/-!
# The fused weight matrix

Before the grid runs, three operations on the four 64 × 64 weight matrices build one
64 × 192 matrix: the transpose of the second, the product of the first with that transpose,
and the concatenation, along the columns, of that product with the third and the fourth:

  `fusedW w1 w2 w3 w4 = [ w1 · w2ᵀ | w3 | w4 ]`.

Read at row `d` and column `n`:
* for `n = d' < 64` it is `∑ e, w1[d, e] · w2[d', e]`, the entry `(d, d')` of `w1 · w2ᵀ`;
* for `n = 64 + e` it is `w3[d, e]`;
* for `n = 128 + e` it is `w4[d, e]`.

The last statement says that what the three operations leave in the buffer of the fused
weight, from any launch memory, is `fusedW` of the four argument arrays.
-/

noncomputable section

namespace Cert.KernelIdeal.Fused

open Cert.KernelIdeal Cert.KernelIdeal.Gen Idealize.ShloMosaic Idealize.ShloMosaic.ValueIdx
open Idealize.ShloMosaic.TcCoe Idealize.SL.Sem

local notation "DK" => dot_S64x64_S64x64_S64x64_1_0_0_1_n_n

/-- `[ w1 · w2ᵀ | w3 | w4 ]`: the product of the first matrix with the transpose of the second,
then the third, then the fourth, side by side along the columns. -/
def fusedW (w1 w2 w3 w4 : FVec Ideal S64x64 .f32) : FVec Ideal S64x192 .f32 :=
  concatenate S64x192 1
    [⟨S64x64, Host.dotGeneral DK none w1 (transpose S64x64 [1, 0] w2 transposes_S64x64_S64x64_1_0)⟩,
     ⟨S64x64, w3⟩, ⟨S64x64, w4⟩]
    concatenates_S64x64_S64x64_S64x64_S64x192_d1

/-! ## The product's operand indices: row of the left, contraction, column of the right -/

theorem cross_l0 (i : S64x64.Idx) (κ : (DK).contr.Idx) : ((DK).lhsIdx i κ 0).val = (i 0).val := by
  unfold DotDims.lhsIdx
  rw [dif_neg (show ¬(0 : Fin S64x64.rank) ∈ (DK).lhsBatch by decide), dif_pos (show (0 : Fin S64x64.rank) ∈ (DK).lhsNonContracting by decide)]
  rfl
theorem cross_l1 (i : S64x64.Idx) (κ : (DK).contr.Idx) : ((DK).lhsIdx i κ 1).val = (κ ⟨0, by decide⟩).val :=
  (DK).lhsIdx_val_of_single rfl i κ
theorem cross_r0 (i : S64x64.Idx) (κ : (DK).contr.Idx) : ((DK).rhsIdx i κ 0).val = (κ ⟨0, by decide⟩).val :=
  (DK).rhsIdx_val_of_single rfl i κ
theorem cross_r1 (i : S64x64.Idx) (κ : (DK).contr.Idx) : ((DK).rhsIdx i κ 1).val = (i 1).val := by
  unfold DotDims.rhsIdx
  rw [dif_neg (show ¬(1 : Fin S64x64.rank) ∈ (DK).rhsBatch by decide), dif_pos (show (1 : Fin S64x64.rank) ∈ (DK).rhsNonContracting by decide)]
  rfl

/-- Entry `(d, d')` of `w1 · w2ᵀ`: row `d` of `w1` against row `d'` of `w2`. -/
theorem cross_apply (w1 w2 : FVec Ideal S64x64 .f32) (d d' : Fin 64) :
    Host.dotGeneral DK none w1 (transpose S64x64 [1, 0] w2 transposes_S64x64_S64x64_1_0) (ix2 d d')
      = ∑ e : Fin 64, w1 (ix2 d e) * w2 (ix2 d' e) := by
  refine (Ideal.dotGeneral_apply DK none _ w1 _ (ix2 d d')).trans ?_
  rw [← Equiv.sum_comp (contrEquiv1 DK 64 rfl rfl).symm]
  refine Finset.sum_congr rfl fun e _ => ?_
  have he := contrEquiv1_symm_val DK 64 rfl rfl e
  have el : (DK).lhsIdx (ix2 d d') ((contrEquiv1 DK 64 rfl rfl).symm e) = ix2 d e := funext fun a => Fin.ext (by
    match a with
    | ⟨0, _⟩ => exact cross_l0 _ _
    | ⟨1, _⟩ => exact (cross_l1 _ _).trans he)
  have er : (DK).rhsIdx (ix2 d d') ((contrEquiv1 DK 64 rfl rfl).symm e) = ix2 e d' := funext fun a => Fin.ext (by
    match a with
    | ⟨0, _⟩ => exact (cross_r0 _ _).trans he
    | ⟨1, _⟩ => exact cross_r1 _ _)
  rw [el, er]
  refine congrArg (w1 (ix2 d e) * ·) ?_
  exact transpose_apply [1, 0] w2 transposes_S64x64_S64x64_1_0 (ix2 e d') (ix2 d' e) (fun b => by
    match b with
    | ⟨0, _⟩ => rfl
    | ⟨1, _⟩ => rfl)

/-! ## The three column groups -/

/-- Columns `0 … 63`: the product `w1 · w2ᵀ`. -/
theorem fusedW_cross (w1 w2 w3 w4 : FVec Ideal S64x64 .f32) (d d' : Fin 64) (n : Fin 192) (hn : n.val = d'.val) :
    fusedW w1 w2 w3 w4 (ix2 d n) = ∑ e : Fin 64, w1 (ix2 d e) * w2 (ix2 d' e) := by
  unfold fusedW
  refine (concatenate_apply_piece (1 : Fin S64x192.rank)
    [⟨S64x64, Host.dotGeneral DK none w1 (transpose S64x64 [1, 0] w2 transposes_S64x64_S64x64_1_0)⟩, ⟨S64x64, w3⟩, ⟨S64x64, w4⟩]
    concatenates_S64x64_S64x64_S64x64_S64x192_d1 (ix2 d n)
    0 (Nat.succ_pos 2) S64x64 _ rfl rfl 0 rfl (ix2 d d') (fun b hb => ?_) ?_).trans (cross_apply w1 w2 d d')
  · match b with
    | ⟨0, _⟩ => rfl
    | ⟨1, _⟩ => exact absurd rfl hb
  · show 0 + d'.val = n.val
    omega

/-- Columns `64 … 127`: the third matrix. -/
theorem fusedW_val (w1 w2 w3 w4 : FVec Ideal S64x64 .f32) (d e : Fin 64) (n : Fin 192) (hn : n.val = 64 + e.val) :
    fusedW w1 w2 w3 w4 (ix2 d n) = w3 (ix2 d e) := by
  unfold fusedW
  refine concatenate_apply_piece (1 : Fin S64x192.rank)
    [⟨S64x64, Host.dotGeneral DK none w1 (transpose S64x64 [1, 0] w2 transposes_S64x64_S64x64_1_0)⟩, ⟨S64x64, w3⟩, ⟨S64x64, w4⟩]
    concatenates_S64x64_S64x64_S64x64_S64x192_d1 (ix2 d n)
    1 (Nat.succ_lt_succ (Nat.succ_pos 1)) S64x64 w3 rfl rfl 64 rfl (ix2 d e) (fun b hb => ?_) ?_
  · match b with
    | ⟨0, _⟩ => rfl
    | ⟨1, _⟩ => exact absurd rfl hb
  · show 64 + e.val = n.val
    omega

/-- Columns `128 … 191`: the fourth matrix. -/
theorem fusedW_res (w1 w2 w3 w4 : FVec Ideal S64x64 .f32) (d e : Fin 64) (n : Fin 192) (hn : n.val = 128 + e.val) :
    fusedW w1 w2 w3 w4 (ix2 d n) = w4 (ix2 d e) := by
  unfold fusedW
  refine concatenate_apply_piece (1 : Fin S64x192.rank)
    [⟨S64x64, Host.dotGeneral DK none w1 (transpose S64x64 [1, 0] w2 transposes_S64x64_S64x64_1_0)⟩, ⟨S64x64, w3⟩, ⟨S64x64, w4⟩]
    concatenates_S64x64_S64x64_S64x64_S64x192_d1 (ix2 d n)
    2 (Nat.lt_succ_self 2) S64x64 w4 rfl rfl 128 rfl (ix2 d e) (fun b hb => ?_) ?_
  · match b with
    | ⟨0, _⟩ => rfl
    | ⟨1, _⟩ => exact absurd rfl hb
  · show 128 + e.val = n.val
    omega

/-! ## What the three operations leave in the fused weight's buffer -/

theorem after_v2 (m : (ℓ : Loc nD τ sig) → Buf (Elt Ideal) ℓ) (c : Dev nD) :
    StableHlo.after (hostOps0 (F := Ideal)) (fun b => m (c, b)) (Proc.devRef .tc main_v2)
      = fusedW (m ((c : Thread nD τ).loc main_arg1)) (m ((c : Thread nD τ).loc main_arg2))
          (m ((c : Thread nD τ).loc main_arg3)) (m ((c : Thread nD τ).loc main_arg4)) := by
  simp only [StableHlo.after_cons, StableHlo.after_nil]
  rw [StableHlo.nary_result]
  dsimp only [Matrix.cons_val]
  repeat (first
    | rw [StableHlo.unary_result] | rw [StableHlo.binary_result]
    | (rw [StableHlo.unary_result_ne]; rotate_left; decide)
    | (rw [StableHlo.binary_result_ne]; rotate_left; decide))
  rfl

end Cert.KernelIdeal.Fused

end
-- ==== Proof.ScoreAlgebra.lean ====
import Mathlib.Data.EReal.Operations
import Mathlib.Algebra.BigOperators.Ring.Finset
import Mathlib.Algebra.BigOperators.Group.Finset.Sigma

/-!
# Regrouping a product of three matrices over the extended reals

For matrices `x : Q × D`, `wq wk : D × E` whose entries are real numbers
(embedded in `EReal`), the score matrix can be computed in two ways:

* `x · (wq · wkᵀ) · xᵀ`  — first contract the two weight matrices over `E`;
* `(x · wq) · (x · wk)ᵀ` — first project `x` twice, then contract over `E`.

Multiplication in `EReal` is not distributive in general (because of `⊤` and
`⊥`), so the identity is proved by moving to `ℝ`: every entry is a coercion of
a real, coercion commutes with products and finite sums, and in `ℝ` the
identity is distributivity together with an exchange of the order of summation.
-/

open scoped BigOperators

namespace Cert.AttnAlgebra

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- A finite sum of real numbers (seen in `EReal`) is a real number. -/
theorem sum_real {ι : Type*} [Fintype ι] {f : ι → EReal}
    (hf : ∀ i, ∃ r : ℝ, f i = (r : EReal)) : ∃ r : ℝ, ∑ i, f i = (r : EReal) := by
  choose g hg using hf
  refine ⟨∑ i, g i, ?_⟩
  rw [coe_sum]
  exact Finset.sum_congr rfl fun i _ => hg i

/-- A product of two real numbers (seen in `EReal`) is a real number. -/
theorem mul_real {a b : EReal} (ha : ∃ r : ℝ, a = (r : EReal)) (hb : ∃ s : ℝ, b = (s : EReal)) :
    ∃ t : ℝ, a * b = (t : EReal) := by
  obtain ⟨r, rfl⟩ := ha
  obtain ⟨s, rfl⟩ := hb
  exact ⟨r * s, (EReal.coe_mul r s).symm⟩

/-- The regrouping identity over `ℝ`:
`∑_{d'} (∑_d x_q,d (∑_e wq_d,e wk_d',e)) x_k,d' = ∑_e (∑_d x_q,d wq_d,e)(∑_{d'} x_k,d' wk_d',e)`.
Both sides equal the triple sum `∑_e ∑_d ∑_{d'} x_q,d wq_d,e x_k,d' wk_d',e`. -/
theorem regroup_real {D E : Type*} [Fintype D] [Fintype E]
    (xq xk : D → ℝ) (wq wk : D → E → ℝ) :
    ∑ d' : D, (∑ d : D, xq d * (∑ e : E, wq d e * wk d' e)) * xk d'
      = ∑ e : E, (∑ d : D, xq d * wq d e) * (∑ d' : D, xk d' * wk d' e) := by
  have hR : ∀ e : E, (∑ d : D, xq d * wq d e) * (∑ d' : D, xk d' * wk d' e)
      = ∑ d' : D, ∑ d : D, xq d * wq d e * (xk d' * wk d' e) := by
    intro e
    rw [Finset.sum_mul_sum, Finset.sum_comm]
  have hL : ∀ d' : D, (∑ d : D, xq d * (∑ e : E, wq d e * wk d' e)) * xk d'
      = ∑ e : E, ∑ d : D, xq d * wq d e * (xk d' * wk d' e) := by
    intro d'
    rw [Finset.sum_mul, Finset.sum_comm]
    refine Finset.sum_congr rfl fun d _ => ?_
    rw [Finset.mul_sum, Finset.sum_mul]
    refine Finset.sum_congr rfl fun e _ => ?_
    ring
  simp only [hR, hL]
  exact Finset.sum_comm

/-- **Regrouping the product of three matrices.**  For `x : Q × D` and
`wq wk : D × E` with real entries, `x · (wq · wkᵀ) · xᵀ = (x · wq) · (x · wk)ᵀ`,
entry by entry, in `EReal`. -/
theorem score_regroup {Q D E : Type*} [Fintype Q] [Fintype D] [Fintype E]
    (x : Q → D → EReal) (wq wk : D → E → EReal)
    (hx : ∀ q d, ∃ r : ℝ, x q d = (r : EReal))
    (hq : ∀ d e, ∃ r : ℝ, wq d e = (r : EReal))
    (hk : ∀ d e, ∃ r : ℝ, wk d e = (r : EReal))
    (q k : Q) :
    ∑ d' : D, (∑ d : D, x q d * (∑ e : E, wq d e * wk d' e)) * x k d'
      = ∑ e : E, (∑ d : D, x q d * wq d e) * (∑ d' : D, x k d' * wk d' e) := by
  choose xr hxr using hx
  choose qr hqr using hq
  choose kr hkr using hk
  simp only [hxr, hqr, hkr, ← EReal.coe_mul, ← coe_sum]
  exact congrArg _ (regroup_real (xr q) (xr k) qr kr)

end Cert.AttnAlgebra
-- ==== Proof.FiniteInputs.lean ====
import proofs.«159285_j76630806495342_2_alg».proof.Defs
import Idealize.ShloMosaic.Lib.ReduceAll
import Idealize.ShloMosaic.Lib.ValueIdx

/-!
# From the precondition to "every input entry is a real number"

The precondition is the conjunction, over the five argument arrays, of
`all (|x| < +∞)`.  In the extended reals `|x| = max x (-x)`, and
`max x (-x) < ⊤` excludes exactly `x = ⊤` and `x = ⊥`; so every entry of every
argument array is the coercion of a real number.

The decoding goes from the outside in: a conjunction of one-bit words equal to
one gives each conjunct equal to one; an "all" (a reduction by `and` over every
axis) equal to one gives the compared bit equal to one at every index; the
compared bit at an index is the statement `max x (-x) < ⊤` for the entry `x`
there.  Nothing is evaluated over the index types: each step is a statement
about an arbitrary index.
-/

noncomputable section

namespace Cert.AttnFinite

open Idealize.ShloMosaic Idealize.SL.Sem
open Cert.Pre_finite_inputs

/-- The shape of rank zero has exactly one index. -/
instance : Subsingleton S_.Idx := ⟨fun a b => funext fun d => d.elim0⟩

/-- The bit pattern `0x7F800000` denotes `+∞`. -/
theorem inf_eq_top : Ideal.ofBits .f32 0x7F800000#32 = (⊤ : EReal) := by
  simp [Ideal.ofBits, Ideal.ieee]

/-- An extended real whose absolute value `max x (-x)` is below `⊤` is a real number:
the two infinities both have absolute value `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The compared bit `|x| < +∞` being one says the entry is a real number. -/
theorem real_of_cmp (x : EReal)
    (h : Ideal.cmp .olt (max x (-x)) (Ideal.ofBits .f32 0x7F800000#32) = 1#1) :
    ∃ r : ℝ, x = (r : EReal) := by
  rw [inf_eq_top] at h
  refine real_of_abs_lt_top x ?_
  by_contra hn
  simp [Ideal.cmp, hn] at h

/-- One "all (|x| < +∞)" decoded: if the reduction by `and` over every axis of the
compared bits is one, every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1)
    (i : s.Idx) : ∃ r : ℝ, x i = (r : EReal) :=
  real_of_cmp (x i) (Host.reduce_andi_all _ init hr hu j e i)

/-- The printed predicate decoded: if it is one, every entry of each of its five
arguments is a real number. -/
theorem real_of_fn [Cert.Pre_finite_inputs.Facts]
    (a0 : FVec Ideal S16384x40x64 .f32) (a1 a2 a3 a4 : FVec Ideal S64x64 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) := by
  have e := congrFun h ValueIdx.ix0
  dsimp only [Cert.Pre_finite_inputs.fn, Cert.Pre_finite_inputs.fn_part1] at e
  change IntOp.andi _ _ = 1#1 at e
  obtain ⟨e, h4⟩ := IntOp.andi_eq_one.1 e
  change IntOp.andi _ _ = 1#1 at e
  obtain ⟨e, h3⟩ := IntOp.andi_eq_one.1 e
  change IntOp.andi _ _ = 1#1 at e
  obtain ⟨e, h2⟩ := IntOp.andi_eq_one.1 e
  change IntOp.andi _ _ = 1#1 at e
  obtain ⟨h0, h1⟩ := IntOp.andi_eq_one.1 e
  exact ⟨real_of_all a0 _ _ _ _ _ h0, real_of_all a1 _ _ _ _ _ h1, real_of_all a2 _ _ _ _ _ h2,
    real_of_all a3 _ _ _ _ _ h3, real_of_all a4 _ _ _ _ _ h4⟩

/-- **Every entry of every argument array is a real number**, on every device,
for a memory of which the certificate's precondition holds. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  real_of_fn _ _ _ _ _ (h c)

end Cert.AttnFinite

end
-- ==== Proof.KernelResult.lean ====
/-
  The idealized kernel's result as the specification's function of the five arguments.
  The region finds the input as launched and the fused weight as [Wq·Wkᵀ | Wv | Wr]; so the result array is the
  attention with the scores spelt x·(Wq·Wkᵀ)·xᵀ.  Under the precondition every entry of every argument is a real number,
  and over real entries x·(Wq·Wkᵀ)·xᵀ = (x·Wq)·(x·Wk)ᵀ; so the result is also the attention with the scores spelt
  (x·Wq)·(x·Wk)ᵀ, which is what the reference computes.
-/
import proofs.«159285_j76630806495342_2_alg».proof.Proof.KernelValue
import proofs.«159285_j76630806495342_2_alg».proof.Proof.FusedWeight
import proofs.«159285_j76630806495342_2_alg».proof.Proof.ScoreAlgebra
import proofs.«159285_j76630806495342_2_alg».proof.Proof.FiniteInputs
import proofs.«159285_j76630806495342_2_alg».proof.Proof.Gen.Pre_finite_inputs

noncomputable section

namespace Cert.KernelIdeal.Result

open Cert.KernelIdeal Cert.KernelIdeal.Gen Cert.KernelIdeal.Attn Cert.KernelIdeal.Block Cert.KernelIdeal.Fused Cert.AttnSpec
open Idealize.ShloMosaic Idealize.ShloMosaic.TcCoe Idealize.ShloMosaic.ValueIdx Idealize.SL.Sem
open Idealize.ShloMosaic.Pipeline (Dat)

/-! ## The fused weight's column groups -/

theorem grpA_fusedW (w1 w2 w3 w4 : FVec Ideal S64x64 .f32) : grpA (fusedW w1 w2 w3 w4) = crossW (mat w1) (mat w2) :=
  funext fun d => funext fun d' => fusedW_cross w1 w2 w3 w4 d d' (colA d') rfl

theorem grpV_fusedW (w1 w2 w3 w4 : FVec Ideal S64x64 .f32) : grpV (fusedW w1 w2 w3 w4) = mat w3 :=
  funext fun d => funext fun e => fusedW_val w1 w2 w3 w4 d e (colV e) rfl

theorem grpR_fusedW (w1 w2 w3 w4 : FVec Ideal S64x64 .f32) : grpR (fusedW w1 w2 w3 w4) = mat w4 :=
  funext fun d => funext fun e => fusedW_res w1 w2 w3 w4 d e (colR e) rfl

/-! ## The two spellings of the scores agree on real entries -/

theorem scores_agree (X : SX.Idx → EReal) (Wq Wk : SW.Idx → EReal) (hX : ∀ i, ∃ r : ℝ, X i = (r : EReal))
    (hq : ∀ i, ∃ r : ℝ, Wq i = (r : EReal)) (hk : ∀ i, ∃ r : ℝ, Wk i = (r : EReal)) (b : Fin 16384) (q k : Fin 40) :
    scoresVia (slab X b) (crossW (mat Wq) (mat Wk)) q k = scoresQK (slab X b) (mat Wq) (mat Wk) q k :=
  Cert.AttnAlgebra.score_regroup (slab X b) (mat Wq) (mat Wk) (fun _ _ => hX _) (fun _ _ => hq _) (fun _ _ => hk _) q k

/-! ## The result array -/

variable (m : (ℓ : Loc nD τ sig) → Buf (Elt Ideal) ℓ) (ρ : Dev nD → PrngReg)

/-- Under the precondition the result array after the run is the specification's function of the arguments. -/
theorem result (hpre : Cert.Pre_KernelIdeal m) (c : Dev nD) :
    (dats m 0 c).arrAt 2 cfg0.N
      = attnQK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  obtain ⟨h0, h1, h2, h3, h4⟩ := Cert.AttnFinite.real_of_pre m hpre c
  refine (Cert.KernelIdeal.Whole.final m c).trans ?_
  rw [V_main_arg0]
  refine (congrArg (attnFused _) (after_v2 m c)).trans ?_
  refine (attnFused_eq _ _ _ _ _ _ (grpA_fusedW _ _ _ _) (grpV_fusedW _ _ _ _) (grpR_fusedW _ _ _ _)).trans ?_
  exact attnVia_eq_attnQK _ _ _ _ _ (fun b q k => scores_agree _ _ _ h0 h1 h2 b q k)

/-- The run of the idealized kernel program: it ends with the result at the specification's function of the arguments
    and the five arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v3)
        = attnQK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (result m hpre c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩)
    (run_main m ρ)

end Cert.KernelIdeal.Result

end
-- ==== Proof.lean ====
/-
  The five claims about the self-attention kernel and its reference.

  Both programs compute, for each batch element with slab x (40 rows of 64 features),
      max (softmax(S)·(x·Wv) + x·Wr, 0),   softmax along each row of the 40 × 40 scores S.
  The reference takes S = (x·Wq)·(x·Wk)ᵀ.  The kernel first forms Wq·Wkᵀ on the host, joins it with Wv and Wr into one
  64 × 192 matrix, multiplies every row of a block of 128 batch elements by it in one product, and takes
  S = (x·(Wq·Wkᵀ))·xᵀ.  Read at exact arithmetic, with every input a real number, the two spellings of S are equal, so the
  two results are equal entry by entry.

  The frames (each program terminates, faults nowhere and leaves its arguments unchanged) come from the runs: the two
  kernel programs' run of the pipelined region, and the reference's run of its host operations.  The kernel's
  idealization rewrote nothing, so there is nothing to preserve.
-/
import proofs.«159285_j76630806495342_2_alg».proof.Defs
import proofs.«159285_j76630806495342_2_alg».proof.Proof.Gen.Kernel
import proofs.«159285_j76630806495342_2_alg».proof.Proof.Gen.KernelIdeal
import proofs.«159285_j76630806495342_2_alg».proof.Proof.Gen.ReferenceIdeal
import proofs.«159285_j76630806495342_2_alg».proof.Proof.Gen.Pre_finite_inputs
import proofs.«159285_j76630806495342_2_alg».proof.Proof.Gen.ReferenceIdeal.Run
import proofs.«159285_j76630806495342_2_alg».proof.Proof.Gen.ReferenceIdeal.Read
import proofs.«159285_j76630806495342_2_alg».proof.Proof.BitsLaunch
import proofs.«159285_j76630806495342_2_alg».proof.Proof.IdealLaunch
import proofs.«159285_j76630806495342_2_alg».proof.Proof.RefStages
import proofs.«159285_j76630806495342_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_kernel : Cert.frame_Kernel := fun m g _ => Cert.Kernel.Attn.frame m g

/-- So does the idealized kernel program. -/
theorem frame_kernelIdeal : Cert.frame_KernelIdeal := fun m g _ => Cert.KernelIdeal.Attn.frame m g

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the result at the specification's
    function of the arguments: the kernel by its run, the reference by its run read stage by stage. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Stages.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
